-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x2 : Shape := ⟨2, ![262144, 2]⟩
abbrev S2x256 : Shape := ⟨2, ![2, 256]⟩
abbrev S512x256 : Shape := ⟨2, ![512, 256]⟩
abbrev S256 : Shape := ⟨1, ![256]⟩
abbrev S7x256x256 : Shape := ⟨3, ![7, 256, 256]⟩
abbrev S7x256 : Shape := ⟨2, ![7, 256]⟩
abbrev S256x1 : Shape := ⟨2, ![256, 1]⟩
abbrev S1 : Shape := ⟨1, ![1]⟩
abbrev S_ : Shape := ⟨0, ![]⟩

class Facts : Prop where
  bcast_S_S262144x2 : S_.BroadcastsInDim S262144x2 (![] : Fin 0 → Fin S262144x2.rank)
  reducesTo_S262144x2_S_d0_1 : S262144x2.ReducesTo [0, 1] S_
  h_S_ : 0 < S_.numel
  bcast_S_S2x256 : S_.BroadcastsInDim S2x256 (![] : Fin 0 → Fin S2x256.rank)
  reducesTo_S2x256_S_d0_1 : S2x256.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S7x256x256 : S_.BroadcastsInDim S7x256x256 (![] : Fin 0 → Fin S7x256x256.rank)
  reducesTo_S7x256x256_S_d0_1_2 : S7x256x256.ReducesTo [0, 1, 2] S_
  bcast_S_S7x256 : S_.BroadcastsInDim S7x256 (![] : Fin 0 → Fin S7x256.rank)
  reducesTo_S7x256_S_d0_1 : S7x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S7x256x256 .f32) (main_arg5 : FVec F S7x256 .f32) (main_arg6 : FVec F S256x1 .f32) (main_arg7 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S7x256x256 .f32 := Host.absf main_arg4
  let main_cst_6 : FVec F S_ .f32 := constant S_ .f32 0x7F800000#32
  let main_v20 : FVec F S7x256x256 .f32 := broadcastInDim S7x256x256 ![] bcast_S_S7x256x256 main_cst_6
  let main_v21 : IVec S7x256x256 1 := cmpf .olt main_v19 main_v20
  let main_c_7 : IVec S_ 1 := constantI S_ 1 1#1
  let main_v22 : IVec S_ 1 := (fun x v => Host.reduce IntOp.andi x v reducesTo_S7x256x256_S_d0_1_2 h_S_) main_v21 main_c_7
  let main_v23 : IVec S_ 1 := andi main_v18 main_v22
  let main_v24 : FVec F S7x256 .f32 := Host.absf main_arg5
  let main_cst_8 : FVec F S_ .f32 := constant S_ .f32 0x7F800000#32
  let main_v25 : FVec F S7x256 .f32 := broadcastInDim S7x256 ![] bcast_S_S7x256 main_cst_8
  let main_v26 : IVec S7x256 1 := cmpf .olt main_v24 main_v25
  let main_c_9 : IVec S_ 1 := constantI S_ 1 1#1
  let main_v27 : IVec S_ 1 := (fun x v => Host.reduce IntOp.andi x v reducesTo_S7x256_S_d0_1 h_S_) main_v26 main_c_9
  let main_v28 : IVec S_ 1 := andi main_v23 main_v27
  let main_v29 : FVec F S256x1 .f32 := Host.absf main_arg6
  let main_cst_10 : FVec F S_ .f32 := constant S_ .f32 0x7F800000#32
  let main_v30 : FVec F S256x1 .f32 := broadcastInDim S256x1 ![] bcast_S_S256x1 main_cst_10
  let main_v31 : IVec S256x1 1 := cmpf .olt main_v29 main_v30
  let main_c_11 : IVec S_ 1 := constantI S_ 1 1#1
  let main_v32 : IVec S_ 1 := (fun x v => Host.reduce IntOp.andi x v reducesTo_S256x1_S_d0_1 h_S_) main_v31 main_c_11
  let main_v33 : IVec S_ 1 := andi main_v28 main_v32
  fn_part2 (F := F) main_arg7 main_v33

def fn {F : FTy → Type} [FloatOps F] (main_arg0 : FVec F S262144x2 .f32) (main_arg1 : FVec F S2x256 .f32) (main_arg2 : FVec F S512x256 .f32) (main_arg3 : FVec F S256 .f32) (main_arg4 : FVec F S7x256x256 .f32) (main_arg5 : FVec F S7x256 .f32) (main_arg6 : FVec F S256x1 .f32) (main_arg7 : FVec F S1 .f32) : IVec S_ 1 :=
  let main_v0 : FVec F S262144x2 .f32 := Host.absf main_arg0
  let main_cst : FVec F S_ .f32 := constant S_ .f32 0x7F800000#32
  let main_v1 : FVec F S262144x2 .f32 := broadcastInDim S262144x2 ![] bcast_S_S262144x2 main_cst
  let main_v2 : IVec S262144x2 1 := cmpf .olt main_v0 main_v1
  let main_c : IVec S_ 1 := constantI S_ 1 1#1
  let main_v3 : IVec S_ 1 := (fun x v => Host.reduce IntOp.andi x v reducesTo_S262144x2_S_d0_1 h_S_) main_v2 main_c
  let main_v4 : FVec F S2x256 .f32 := Host.absf main_arg1
  let main_cst_0 : FVec F S_ .f32 := constant S_ .f32 0x7F800000#32
  let main_v5 : FVec F S2x256 .f32 := broadcastInDim S2x256 ![] bcast_S_S2x256 main_cst_0
  let main_v6 : IVec S2x256 1 := cmpf .olt main_v4 main_v5
  let main_c_1 : IVec S_ 1 := constantI S_ 1 1#1
  let main_v7 : IVec S_ 1 := (fun x v => Host.reduce IntOp.andi x v reducesTo_S2x256_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S262144x2 : Shape := ⟨2, ![262144, 2]⟩
abbrev S2x256 : Shape := ⟨2, ![2, 256]⟩
abbrev S512x256 : Shape := ⟨2, ![512, 256]⟩
abbrev S256 : Shape := ⟨1, ![256]⟩
abbrev S7x256x256 : Shape := ⟨3, ![7, 256, 256]⟩
abbrev S7x256 : Shape := ⟨2, ![7, 256]⟩
abbrev S256x1 : Shape := ⟨2, ![256, 1]⟩
abbrev S1 : Shape := ⟨1, ![1]⟩
abbrev S262144x1 : Shape := ⟨2, ![262144, 1]⟩
abbrev S1024x2 : Shape := ⟨2, ![1024, 2]⟩
abbrev S1024x1 : Shape := ⟨2, ![1024, 1]⟩
abbrev S1x256 : Shape := ⟨2, ![1, 256]⟩
abbrev S1024x256 : Shape := ⟨2, ![1024, 256]⟩
abbrev S256x256 : Shape := ⟨2, ![256, 256]⟩
abbrev S1x256x256 : Shape := ⟨3, ![1, 256, 256]⟩
abbrev S1x1 : Shape := ⟨2, ![1, 1]⟩

abbrev nBuf : Space → Nat
  | .hbm => 12
  | .vmem => 11
  | .smem => 0
  | _ => 0

abbrev bufTy : (tb : Table) → Fin (tcTables nBuf tb) → BufTy
  | .hbm, ⟨0, _⟩ => ⟨S262144x2, .f32⟩
  | .hbm, ⟨1, _⟩ => ⟨S2x256, .f32⟩
  | .hbm, ⟨2, _⟩ => ⟨S512x256, .f32⟩
  | .hbm, ⟨3, _⟩ => ⟨S256, .f32⟩
  | .hbm, ⟨4, _⟩ => ⟨S7x256x256, .f32⟩
  | .hbm, ⟨5, _⟩ => ⟨S7x256, .f32⟩
  | .hbm, ⟨6, _⟩ => ⟨S256x1, .f32⟩
  | .hbm, ⟨7, _⟩ => ⟨S1, .f32⟩
  | .hbm, ⟨8, _⟩ => ⟨S512x256, .bf16⟩
  | .hbm, ⟨9, _⟩ => ⟨S7x256x256, .bf16⟩
  | .hbm, ⟨10, _⟩ => ⟨S256x1, .bf16⟩
  | .hbm, ⟨11, _⟩ => ⟨S262144x1, .f32⟩
  | .local _ .vmem, ⟨0, _⟩ => ⟨S1024x2, .f32⟩
  | .local _ .vmem, ⟨1, _⟩ => ⟨S1024x2, .f32⟩
  | .local _ .vmem, ⟨2, _⟩ => ⟨S2x256, .f32⟩
  | .local _ .vmem, ⟨3, _⟩ => ⟨S512x256, .bf16⟩
  | .local _ .vmem, ⟨4, _⟩ => ⟨S256, .f32⟩
  | .local _ .vmem, ⟨5, _⟩ => ⟨S7x256x256, .bf16⟩
  | .local _ .vmem, ⟨6, _⟩ => ⟨S7x256, .f32⟩
  | .local _ .vmem, ⟨7, _⟩ => ⟨S256x1, .bf16⟩
  | .local _ .vmem, ⟨8, _⟩ => ⟨S1, .f32⟩
  | .local _ .vmem, ⟨9, _⟩ => ⟨S1024x1, .f32⟩
  | .local _ .vmem, ⟨10, _⟩ => ⟨S1024x1, .f32⟩
  | _, _ => ⟨S262144x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S7x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  inb_S1024x2_S1024x2_0_0 : ∀ a, (![0, 0] : Fin 2 → Nat) a + S1024x2.size a ≤ S1024x2.size a
  h_S1024x2 : 0 < S1024x2.numel
  inb_S2x256_S2x256_0_0 : ∀ a, (![0, 0] : Fin 2 → Nat) a + S2x256.size a ≤ S2x256.size a
  h_S2x256 : 0 < S2x256.numel
  slices_S1024x2_o0_0_S1024x1 : S1024x2.Slices ![0, 0] S1024x1
  slices_S2x256_o0_0_S1x256 : S2x256.Slices ![0, 0] S1x256
  broadcasts_S1024x1_S1024x256 : S1024x1.Broadcasts S1024x256
  broadcasts_S1x256_S1024x256 : S1x256.Broadcasts S1024x256
  slices_S1024x2_o0_1_S1024x1 : S1024x2.Slices ![0, 1] S1024x1
  slices_S2x256_o1_0_S1x256 : S2x256.Slices ![1, 0] S1x256
  inb_S512x256_S256x256_0_0 : ∀ a, (![0, 0] : Fin 2 → Nat) a + S256x256.size a ≤ S512x256.size a
  h_S256x256 : 0 < S256x256.numel
  shapeCasts_S256x256_S256x256 : S256x256.ShapeCasts S256x256
  inb_S512x256_S256x256_256_0 : ∀ a, (![256, 0] : Fin 2 → Nat) a + S256x256.size a ≤ S512x256.size a
  inb_S256_S256_0 : ∀ a, (![0] : Fin 1 → Nat) a + S256.size a ≤ S256.size a
  h_S256 : 0 < S256.numel
  shapeCasts_S256_S1x256 : S256.ShapeCasts S1x256
  inb_S7x256x256_S1x256x256_0_0_0 : ∀ a, (![0, 0, 0] : Fin 3 → Nat) a + S1x256x256.size a ≤ S7x256x256.size a
  h_S1x256x256 : 0 < S1x256x256.numel
  shapeCasts_S1x256x256_S256x256 : S1x256x256.ShapeCasts S256x256
  inb_S7x256_S1x256_0_0 : ∀ a, (![0, 0] : Fin 2 → Nat) a + S1x256.size a ≤ S7x256.size a
  h_S1x256 : 0 < S1x256.numel
  shapeCasts_S1x256_S256 : S1x256.ShapeCasts S256
  inb_S7x256x256_S1x256x256_1_0_0 : ∀ a, (![1, 0, 0] : Fin 3 → Nat) a + S1x256x256.size a ≤ S7x256x256.size a
  inb_S7x256_S1x256_1_0 : ∀ a, (![1, 0] : Fin 2 → Nat) a + S1x256.size a ≤ S7x256.size a
  inb_S7x256x256_S1x256x256_2_0_0 : ∀ a, (![2, 0, 0] : Fin 3 → Nat) a + S1x256x256.size a ≤ S7x256x256.size a
  inb_S7x256_S1x256_2_0 : ∀ a, (![2, 0] : Fin 2 → Nat) a + S1x256.size a ≤ S7x256.size a
  inb_S7x256x256_S1x256x256_3_0_0 : ∀ a, (![3, 0, 0] : Fin 3 → Nat) a + S1x256x256.size a ≤ S7x256x256.size a
  inb_S7x256_S1x256_3_0 : ∀ a, (![3, 0] : Fin 2 → Nat) a + S1x256.size a ≤ S7x256.size a
  inb_S7x256x256_S1x256x256_4_0_0 : ∀ a, (![4, 0, 0] : Fin 3 → Nat) a + S1x256x256.size a ≤ S7x256x256.size a
  inb_S7x256_S1x256_4_0 : ∀ a, (![4, 0] : Fin 2 → Nat) a + S1x256.size a ≤ S7x256.size a
  inb_S7x256x256_S1x256x256_5_0_0 : ∀ a, (![5, 0, 0] : Fin 3 → Nat) a + S1x256x256.size a ≤ S7x256x256.size a
  inb_S7x256_S1x256_5_0 : ∀ a, (![5, 0] : Fin 2 → Nat) a + S1x256.size a ≤ S7x256.size a
  inb_S7x256x256_S1x256x256_6_0_0 : ∀ a, (![6, 0, 0] : Fin 3 → Nat) a + S1x256x256.size a ≤ S7x256x256.size a
  inb_S7x256_S1x256_6_0 : ∀ a, (![6, 0] : Fin 2 → Nat) a + S1x256.size a ≤ S7x256.size a
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x256_S256x256_S1024x256_1_0_0_1_n_n_wf : DotDims.WF S1024x256 S256x256 S1024x256 [1] [0] [0] [1] [] []
  dot_S1024x256_S256x1_S1024x1_1_0_0_1_n_n_wf : DotDims.WF S1024x256 S256x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2.size a ≤ S262144x2.size a
  hwx0_0 : ∀ i : grid0.Coords, EltTy.bits .f32 = 32 ∨ (Rect.block (s := S262144x2) S1024x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x256.size a ≤ S2x256.size a
  hwx0_1 : ∀ i : grid0.Coords, EltTy.bits .f32 = 32 ∨ (Rect.block (s := S2x256) S2x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S7x256x256.size a ≤ S7x256x256.size a
  hwx0_4 : ∀ i : grid0.Coords, EltTy.bits .bf16 = 32 ∨ (Rect.block (s := S7x256x256) S7x256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S7x256.size a ≤ S7x256.size a
  hwx0_5 : ∀ i : grid0.Coords, EltTy.bits .f32 = 32 ∨ (Rect.block (s := S7x256) S7x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .bf16 = 32 ∨ (Rect.block (s := S256x1) S256x1.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1.size a ≤ S262144x1.size a
  hwx0_8 : ∀ i : grid0.Coords, EltTy.bits .f32 = 32 ∨ (Rect.block (s := S262144x1) S1024x1.size (cc0_transform_8 i) (hinb0_8 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

abbrev win0_0 : Pipeline.Window sig grid0 :=
  Pipeline.Window.ofSpec (Memref.whole main_arg0) S1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S7x256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S7x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1024x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S262144x2 : Shape := ⟨2, ![262144, 2]⟩
abbrev S2x256 : Shape := ⟨2, ![2, 256]⟩
abbrev S512x256 : Shape := ⟨2, ![512, 256]⟩
abbrev S256 : Shape := ⟨1, ![256]⟩
abbrev S7x256x256 : Shape := ⟨3, ![7, 256, 256]⟩
abbrev S7x256 : Shape := ⟨2, ![7, 256]⟩
abbrev S256x1 : Shape := ⟨2, ![256, 1]⟩
abbrev S1 : Shape := ⟨1, ![1]⟩
abbrev S262144x256 : Shape := ⟨2, ![262144, 256]⟩
abbrev S_ : Shape := ⟨0, ![]⟩
abbrev S262144x512 : Shape := ⟨2, ![262144, 512]⟩
abbrev S1x256 : Shape := ⟨2, ![1, 256]⟩
abbrev S1x256x256 : Shape := ⟨3, ![1, 256, 256]⟩
abbrev S256x256 : Shape := ⟨2, ![256, 256]⟩
abbrev S262144x1 : Shape := ⟨2, ![262144, 1]⟩
abbrev S1x1 : Shape := ⟨2, ![1, 1]⟩

abbrev nBuf : Space → Nat
  | .hbm => 87
  | .vmem => 0
  | .smem => 0
  | _ => 0

abbrev bufTy : (tb : Table) → Fin (tcTables nBuf tb) → BufTy
  | .hbm, ⟨0, _⟩ => ⟨S262144x2, .f32⟩
  | .hbm, ⟨1, _⟩ => ⟨S2x256, .f32⟩
  | .hbm, ⟨2, _⟩ => ⟨S512x256, .f32⟩
  | .hbm, ⟨3, _⟩ => ⟨S256, .f32⟩
  | .hbm, ⟨4, _⟩ => ⟨S7x256x256, .f32⟩
  | .hbm, ⟨5, _⟩ => ⟨S7x256, .f32⟩
  | .hbm, ⟨6, _⟩ => ⟨S256x1, .f32⟩
  | .hbm, ⟨7, _⟩ => ⟨S1, .f32⟩
  | .hbm, ⟨8, _⟩ => ⟨S262144x256, .f32⟩
  | .hbm, ⟨9, _⟩ => ⟨S_, .f32⟩
  | .hbm, ⟨10, _⟩ => ⟨S262144x256, .f32⟩
  | .hbm, ⟨11, _⟩ => ⟨S262144x256, .f32⟩
  | .hbm, ⟨12, _⟩ => ⟨S262144x256, .f32⟩
  | .hbm, ⟨13, _⟩ => ⟨S262144x256, .f32⟩
  | .hbm, ⟨14, _⟩ => ⟨S262144x512, .f32⟩
  | .hbm, ⟨15, _⟩ => ⟨S262144x256, .f32⟩
  | .hbm, ⟨16, _⟩ => ⟨S1x256, .f32⟩
  | .hbm, ⟨17, _⟩ => ⟨S262144x256, .f32⟩
  | .hbm, ⟨18, _⟩ => ⟨S262144x256, .f32⟩
  | .hbm, ⟨19, _⟩ => ⟨S262144x256, .f32⟩
  | .hbm, ⟨20, _⟩ => ⟨S1x256x256, .f32⟩
  | .hbm, ⟨21, _⟩ => ⟨S256x256, .f32⟩
  | .hbm, ⟨22, _⟩ => ⟨S262144x256, .f32⟩
  | .hbm, ⟨23, _⟩ => ⟨S1x256, .f32⟩
  | .hbm, ⟨24, _⟩ => ⟨S256, .f32⟩
  | .hbm, ⟨25, _⟩ => ⟨S1x256, .f32⟩
  | .hbm, ⟨26, _⟩ => ⟨S262144x256, .f32⟩
  | .hbm, ⟨27, _⟩ => ⟨S262144x256, .f32⟩
  | .hbm, ⟨28, _⟩ => ⟨S262144x256, .f32⟩
  | .hbm, ⟨29, _⟩ => ⟨S1x256x256, .f32⟩
  | .hbm, ⟨30, _⟩ => ⟨S256x256, .f32⟩
  | .hbm, ⟨31, _⟩ => ⟨S262144x256, .f32⟩
  | .hbm, ⟨32, _⟩ => ⟨S1x256, .f32⟩
  | .hbm, ⟨33, _⟩ => ⟨S256, .f32⟩
  | .hbm, ⟨34, _⟩ => ⟨S1x256, .f32⟩
  | .hbm, ⟨35, _⟩ => ⟨S262144x256, .f32⟩
  | .hbm, ⟨36, _⟩ => ⟨S262144x256, .f32⟩
  | .hbm, ⟨37, _⟩ => ⟨S262144x256, .f32⟩
  | .hbm, ⟨38, _⟩ => ⟨S1x256x256, .f32⟩
  | .hbm, ⟨39, _⟩ => ⟨S256x256, .f32⟩
  | .hbm, ⟨40, _⟩ => ⟨S262144x256, .f32⟩
  | .hbm, ⟨41, _⟩ => ⟨S1x256, .f32⟩
  | .hbm, ⟨42, _⟩ => ⟨S256, .f32⟩
  | .hbm, ⟨43, _⟩ => ⟨S1x256, .f32⟩
  | .hbm, ⟨44, _⟩ => ⟨S262144x256, .f32⟩
  | .hbm, ⟨45, _⟩ => ⟨S262144x256, .f32⟩
  | .hbm, ⟨46, _⟩ => ⟨S262144x256, .f32⟩
  | .hbm, ⟨47, _⟩ => ⟨S1x256x256, .f32⟩
  | .hbm, ⟨48, _⟩ => ⟨S256x256, .f32⟩
  | .hbm, ⟨49, _⟩ => ⟨S262144x256, .f32⟩
  | .hbm, ⟨50, _⟩ => ⟨S1x256, .f32⟩
  | .hbm, ⟨51, _⟩ => ⟨S256, .f32⟩
  | .hbm, ⟨52, _⟩ => ⟨S1x256, .f32⟩
  | .hbm, ⟨53, _⟩ => ⟨S262144x256, .f32⟩
  | .hbm, ⟨54, _⟩ => ⟨S262144x256, .f32⟩
  | .hbm, ⟨55, _⟩ => ⟨S262144x256, .f32⟩
  | .hbm, ⟨56, _⟩ => ⟨S1x256x256, .f32⟩
  | .hbm, ⟨57, _⟩ => ⟨S256x256, .f32⟩
  | .hbm, ⟨58, _⟩ => ⟨S262144x256, .f32⟩
  | .hbm, ⟨59, _⟩ => ⟨S1x256, .f32⟩
  | .hbm, ⟨60, _⟩ => ⟨S256, .f32⟩
  | .hbm, ⟨61, _⟩ => ⟨S1x256, .f32⟩
  | .hbm, ⟨62, _⟩ => ⟨S262144x256, .f32⟩
  | .hbm, ⟨63, _⟩ => ⟨S262144x256, .f32⟩
  | .hbm, ⟨64, _⟩ => ⟨S262144x256, .f32⟩
  | .hbm, ⟨65, _⟩ => ⟨S1x256x256, .f32⟩
  | .hbm, ⟨66, _⟩ => ⟨S256x256, .f32⟩
  | .hbm, ⟨67, _⟩ => ⟨S262144x256, .f32⟩
  | .hbm, ⟨68, _⟩ => ⟨S1x256, .f32⟩
  | .hbm, ⟨69, _⟩ => ⟨S256, .f32⟩
  | .hbm, ⟨70, _⟩ => ⟨S1x256, .f32⟩
  | .hbm, ⟨71, _⟩ => ⟨S262144x256, .f32⟩
  | .hbm, ⟨72, _⟩ => ⟨S262144x256, .f32⟩
  | .hbm, ⟨73, _⟩ => ⟨S262144x256, .f32⟩
  | .hbm, ⟨74, _⟩ => ⟨S1x256x256, .f32⟩
  | .hbm, ⟨75, _⟩ => ⟨S256x256, .f32⟩
  | .hbm, ⟨76, _⟩ => ⟨S262144x256, .f32⟩
  | .hbm, ⟨77, _⟩ => ⟨S1x256, .f32⟩
  | .hbm, ⟨78, _⟩ => ⟨S256, .f32⟩
  | .hbm, ⟨79, _⟩ => ⟨S1x256, .f32⟩
  | .hbm, ⟨80, _⟩ => ⟨S262144x256, .f32⟩
  | .hbm, ⟨81, _⟩ => ⟨S262144x256, .f32⟩
  | .hbm, ⟨82, _⟩ => ⟨S262144x256, .f32⟩
  | .hbm, ⟨83, _⟩ => ⟨S262144x1, .f32⟩
  | .hbm, ⟨84, _⟩ => ⟨S1x1, .f32⟩
  | .hbm, ⟨85, _⟩ => ⟨S262144x1, .f32⟩
  | .hbm, ⟨86, _⟩ => ⟨S262144x1, .f32⟩
  | _, _ => ⟨S262144x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩

abbrev nD : Nat := 1
abbrev τ : Topo := Topo.v7x

variable {F : FTy → Type} [FloatOps F]

class Facts₀ : Prop where
  bcast_S_S262144x256 : S_.BroadcastsInDim S262144x256 (![] : Fin 0 → Fin S262144x256.rank)
  concatenates_S262144x256_S262144x256_S262144x512_d1 : Shape.Concatenates [S262144x256, S262144x256] S262144x512 1
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  slices_S7x256x256_S1x256x256_0_0_0 : S7x256x256.Slices ![0, 0, 0] S1x256x256
  shapeCasts_S1x256x256_S256x256 : S1x256x256.ShapeCasts S256x256
  slices_S7x256_S1x256_0_0 : S7x256.Slices ![0, 0] S1x256
  shapeCasts_S1x256_S256 : S1x256.ShapeCasts S256
  slices_S7x256x256_S1x256x256_1_0_0 : S7x256x256.Slices ![1, 0, 0] S1x256x256
  slices_S7x256_S1x256_1_0 : S7x256.Slices ![1, 0] S1x256
  slices_S7x256x256_S1x256x256_2_0_0 : S7x256x256.Slices ![2, 0, 0] S1x256x256
  slices_S7x256_S1x256_2_0 : S7x256.Slices ![2, 0] S1x256
  slices_S7x256x256_S1x256x256_3_0_0 : S7x256x256.Slices ![3, 0, 0] S1x256x256
  slices_S7x256_S1x256_3_0 : S7x256.Slices ![3, 0] S1x256
  slices_S7x256x256_S1x256x256_4_0_0 : S7x256x256.Slices ![4, 0, 0] S1x256x256
  slices_S7x256_S1x256_4_0 : S7x256.Slices ![4, 0] S1x256
  slices_S7x256x256_S1x256x256_5_0_0 : S7x256x256.Slices ![5, 0, 0] S1x256x256
  slices_S7x256_S1x256_5_0 : S7x256.Slices ![5, 0] S1x256
  slices_S7x256x256_S1x256x256_6_0_0 : S7x256x256.Slices ![6, 0, 0] S1x256x256
  slices_S7x256_S1x256_6_0 : S7x256.Slices ![6, 0] S1x256
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  dot_S262144x2_S2x256_S262144x256_1_0_0_1_n_n_wf : DotDims.WF S262144x2 S2x256 S262144x256 [1] [0] [0] [1] [] []
  dot_S262144x512_S512x256_S262144x256_1_0_0_1_n_n_wf : DotDims.WF S262144x512 S512x256 S262144x256 [1] [0] [0] [1] [] []
  dot_S262144x256_S256x256_S262144x256_1_0_0_1_n_n_wf : DotDims.WF S262144x256 S256x256 S262144x256 [1] [0] [0] [1] [] []
  dot_S262144x256_S256x1_S262144x1_1_0_0_1_n_n_wf : DotDims.WF S262144x256 S256x1 S262144x1 [1] [0] [0] [1] [] []

variable [Facts₀]

def dot_S262144x2_S2x256_S262144x256_1_0_0_1_n_n : DotDims S262144x2 S2x256 S262144x256 where
  lhsContracting := [1]
  rhsContracting := [0]
  lhsNonContracting := [0]
  rhsNonContracting := [1]
  lhsBatch := []
  rhsBatch := []
  wf := dot_S262144x2_S2x256_S262144x256_1_0_0_1_n_n_wf
def dot_S262144x512_S512x256_S262144x256_1_0_0_1_n_n : DotDims S262144x512 S512x256 S262144x256 where
  lhsContracting := [1]
  rhsContracting := [0]
  lhsNonContracting := [0]
  rhsNonContracting := [1]
  lhsBatch := []
  rhsBatch := []
  wf := dot_S262144x512_S512x256_S262144x256_1_0_0_1_n_n_wf
def dot_S262144x256_S256x256_S262144x256_1_0_0_1_n_n : DotDims S262144x256 S256x256 S262144x256 where
  lhsContracting := [1]
  rhsContracting := [0]
  lhsNonContracting := [0]
  rhsNonContracting := [1]
  lhsBatch := []
  rhsBatch := []
  wf := dot_S262144x256_S256x256_S262144x256_1_0_0_1_n_n_wf
def dot_S262144x256_S256x1_S262144x1_1_0_0_1_n_n : DotDims S262144x256 S256x1 S262144x1 where
  lhsContracting := [1]
  rhsContracting := [0]
  lhsNonContracting := [0]
  rhsNonContracting := [1]
  lhsBatch := []
  rhsBatch := []
  wf := dot_S262144x256_S256x1_S262144x1_1_0_0_1_n_n_wf

class Facts : Prop extends Facts₀ where

variable [Facts]
-- ==== Proof.Spec.lean ====
/-
  The network both programs compute, on the extended reals, as a function of ONE input point and the weights.

  A point `x ∈ ℝ²` is mapped to 256 angles `θ_j = c · (x₀·P₀ⱼ + x₁·P₁ⱼ)` (`c` the single-precision word nearest 2π,
  the same word in both programs), encoded as the 512 features `(sin θ, cos θ)`, sent through a first layer
  `tanh(features · W₀ + b₀)`, seven layers `tanh(h · Wₗ + bₗ)` and a last affine map `h · w + β`.
  A sum over the 512 features is the sum over the 256 sines plus the sum over the 256 cosines (`sum_halves`):
  addition on the extended reals is commutative and associative, so no finiteness is needed for it.
-/
import Idealize.ShloMosaic.PureOps.Ideal.Laws
import Idealize.ShloMosaic.Lib.ValueIdx

noncomputable section

namespace Cert.Mlp

open Idealize.ShloMosaic Idealize.ShloMosaic.ValueIdx

/-- Row `k` of the upper half of a 512-row matrix. -/
abbrev lo (k : Fin 256) : Fin 512 := ⟨k.val, by omega⟩
/-- Row `k` of the lower half of a 512-row matrix. -/
abbrev hi (k : Fin 256) : Fin 512 := ⟨256 + k.val, by omega⟩

/-- A sum over 512 terms is the sum over the first 256 plus the sum over the last 256. -/
theorem sum_halves {M : Type*} [AddCommMonoid M] (f : Fin 512 → M) :
    ∑ k : Fin 512, f k = (∑ k : Fin 256, f (lo k)) + ∑ k : Fin 256, f (hi k) := by
  exact Fin.sum_univ_add (a := 256) (b := 256) (f := (f : Fin (256 + 256) → M))

/-- The scale of the angles: the single-precision word both programs multiply by. -/
def scale : EReal := Ideal.ofBits .f32 0x40C90FDB#32

/-- The angle of feature `j` at the point `x`. -/
def angle (x : Fin 2 → EReal) (P : Fin 2 → Fin 256 → EReal) (j : Fin 256) : EReal :=
  scale * (x 0 * P 0 j + x 1 * P 1 j)

/-- The first layer: the sines against the upper half of `W₀`, the cosines against the lower half, the bias, `tanh`. -/
def first (x : Fin 2 → EReal) (P : Fin 2 → Fin 256 → EReal) (W0 : Fin 512 → Fin 256 → EReal) (b0 : Fin 256 → EReal)
    (q : Fin 256) : EReal :=
  Ideal.tanh (((∑ k : Fin 256, Ideal.sin (angle x P k) * W0 (lo k) q)
    + ∑ k : Fin 256, Ideal.cos (angle x P k) * W0 (hi k) q) + b0 q)

/-- One hidden layer: `tanh(h · W + b)`. -/
def dense (h : Fin 256 → EReal) (W : Fin 256 → Fin 256 → EReal) (b : Fin 256 → EReal) (q : Fin 256) : EReal :=
  Ideal.tanh ((∑ k : Fin 256, h k * W k q) + b q)

/-- The last affine map to one number. -/
def last (h : Fin 256 → EReal) (w : Fin 256 → EReal) (β : EReal) : EReal :=
  (∑ k : Fin 256, h k * w k) + β

/-- The activations after the first layer and the seven hidden layers. -/
def hidden (x : Fin 2 → EReal) (P : Fin 2 → Fin 256 → EReal) (W0 : Fin 512 → Fin 256 → EReal) (b0 : Fin 256 → EReal)
    (Wh : Fin 7 → Fin 256 → Fin 256 → EReal) (bh : Fin 7 → Fin 256 → EReal) : Fin 256 → EReal :=
  dense (dense (dense (dense (dense (dense (dense (first x P W0 b0)
    (Wh 0) (bh 0)) (Wh 1) (bh 1)) (Wh 2) (bh 2)) (Wh 3) (bh 3)) (Wh 4) (bh 4)) (Wh 5) (bh 5)) (Wh 6) (bh 6)

/-- The network's output at one point. -/
def mlp (x : Fin 2 → EReal) (P : Fin 2 → Fin 256 → EReal) (W0 : Fin 512 → Fin 256 → EReal) (b0 : Fin 256 → EReal)
    (Wh : Fin 7 → Fin 256 → Fin 256 → EReal) (bh : Fin 7 → Fin 256 → EReal) (w : Fin 256 → EReal) (β : EReal) : EReal :=
  last (hidden x P W0 b0 Wh bh) w β

/-- The whole result array: entry `(r, 0)` is the network at row `r` of the input array. -/
def G (x : (⟨2, ![262144, 2]⟩ : Shape).Idx → EReal) (P : (⟨2, ![2, 256]⟩ : Shape).Idx → EReal)
    (W0 : (⟨2, ![512, 256]⟩ : Shape).Idx → EReal) (b0 : (⟨1, ![256]⟩ : Shape).Idx → EReal)
    (Wh : (⟨3, ![7, 256, 256]⟩ : Shape).Idx → EReal) (bh : (⟨2, ![7, 256]⟩ : Shape).Idx → EReal)
    (w : (⟨2, ![256, 1]⟩ : Shape).Idx → EReal) (β : (⟨1, ![1]⟩ : Shape).Idx → EReal) :
    (⟨2, ![262144, 1]⟩ : Shape).Idx → EReal :=
  fun i => mlp (fun k => x (ix2 (⟨(i 0).val, (i 0).isLt⟩ : Fin 262144) k)) (fun a j => P (ix2 a j)) (fun k q => W0 (ix2 k q))
    (fun q => b0 (ix1 q)) (fun l k q => Wh (ix3 l k q)) (fun l q => bh (ix2 l q)) (fun k => w (ix2 k (0 : Fin 1)))
    (β (ix1 (0 : Fin 1)))

end Cert.Mlp

end
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.LibKeepdims.lean ====
/-
  The small readings the kernel's body needs at an index: the two keepdims layout forms (a column
  of row results cast to one column, and one column broadcast along the rows), the result index of a
  reduction along the rows with the reduced coordinate put back, a one-bit comparison word widened to
  32 bits and converted to a float as `0` or `1`, the word arithmetic of a row offset below 8192, and
  a fold of `max` from minus infinity as a supremum.
-/
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

namespace Cert.SupCon.Ker

open Idealize.ShloMosaic Idealize.ShloMosaic.ValueIdx

/-! ## The keepdims layout forms -/

/-- A vector `[a]` cast to one column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along the rows to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a `[a, b]` array that reduces along the rows into `i`, with column `k`, is `(i, k)`. -/
theorem lift_rows {a b : ℕ} (h : (⟨2, ![a, b]⟩ : Shape).Reduces [1] ⟨1, ![a]⟩) (i : Fin a) (k : Fin b) :
    h.lift (ix1 i) k = ix2 i k :=
  funext fun ax => Fin.ext (by
    match ax with
    | ⟨0, _⟩ => rfl
    | ⟨1, _⟩ => rfl)

/-! ## A comparison word as a float -/

/-- A one-bit word widened to 32 bits and converted as a signed integer is `1` or `0`. -/
theorem sitofp_setWidth (b : BitVec 1) :
    FloatOps.sitofp (F := Ideal) .f32 (b.setWidth 32) = if b = 1#1 then (1 : EReal) else 0 := by
  have e0 : ((0#1 : BitVec 1).setWidth 32).toInt = 0 := by decide
  have e1 : ((1#1 : BitVec 1).setWidth 32).toInt = 1 := by decide
  rcases (by decide : ∀ b : BitVec 1, b = 0#1 ∨ b = 1#1) b with rfl | rfl
  · show (((((0#1 : BitVec 1).setWidth 32).toInt : ℤ) : ℝ) : EReal) = _
    rw [e0, if_neg (by decide)]; simp
  · show (((((1#1 : BitVec 1).setWidth 32).toInt : ℤ) : ℝ) : EReal) = _
    rw [e1, if_pos rfl]; simp

/-- The float of an equality comparison of two words. -/
theorem mask_eq {w : ℕ} (x y : BitVec w) :
    FloatOps.sitofp (F := Ideal) .f32 ((IntOp.cmpi .eq x y).setWidth 32) = if x = y then (1 : EReal) else 0 := by
  rw [sitofp_setWidth]
  exact if_congr IntOp.cmpi_eq rfl rfl

/-- The float of an inequality comparison of two words. -/
theorem mask_ne {w : ℕ} (x y : BitVec w) :
    FloatOps.sitofp (F := Ideal) .f32 ((IntOp.cmpi .ne x y).setWidth 32) = if x = y then (0 : EReal) else 1 := by
  rw [sitofp_setWidth]
  by_cases hxy : x = y
  · rw [if_pos hxy, if_neg (fun h => (IntOp.cmpi_ne.mp h) hxy)]
  · rw [if_neg hxy, if_pos (IntOp.cmpi_ne.mpr hxy)]

/-- Row `128 t + r` as 32-bit words, the block's offset `t * 128` a product of words, meets column `j`
    exactly when the two numbers are equal: nothing wraps below 8192. -/
theorem row_word_eq (t r j : ℕ) (ht : t < 64) (hr : r < 128) (hj : j < 8192) :
    IntOp.addi (Scalar.muli (BitVec.ofNat 32 t) 128#32) (BitVec.ofNat 32 r) = BitVec.ofNat 32 j ↔ 128 * t + r = j := by
  show BitVec.ofNat 32 t * 128#32 + BitVec.ofNat 32 r = BitVec.ofNat 32 j ↔ _
  rw [← BitVec.toNat_inj]
  simp only [BitVec.toNat_add, BitVec.toNat_mul, BitVec.toNat_ofNat]
  omega

/-! ## The largest entry of a row -/

/-- The single-precision word `0xFF800000` is minus infinity. -/
theorem ofBits_negInf : Ideal.ofBits .f32 0xFF800000#32 = ⊥ := by simp [Ideal.ofBits, Ideal.ieee]

/-- A fold of `max` from minus infinity is the supremum. -/
theorem fold_max_bot {ι : Type*} (s : Finset ι) (f : ι → EReal) : s.fold max ⊥ f = s.sup f := rfl

end Cert.SupCon.Ker

end
-- ==== Proof.LibRowOps.lean ====
/-
  Rank-2 arrays read row by row at the exact extended reals, in the two spellings a kernel body and a host program
  give each form: a bias vector laid along every row; a column of per-row results laid along every column; the maximum
  and the sum of a row; the host's plain matrix product as a sum over the contracted coordinate. Each lemma reads the
  form at an index `(p, q)` and says which entries of the operand it depends on.
-/
import Idealize.ShloMosaic.Lib.ValueIdx
import Idealize.ShloMosaic.Lib.Pipeline.Value
import Idealize.ShloMosaic.Lib.KernelVsHost
import Idealize.ShloMosaic.PureOps.Ideal.Laws
import proofs.«114249_j23845658427755_1_alg».proof.Proof.LibDotIdx
import proofs.«114249_j23845658427755_1_alg».proof.Proof.LibKeepdims

noncomputable section

namespace Cert.LibRowOps

open Idealize.ShloMosaic Idealize.ShloMosaic.ValueIdx

variable {α : Type}

/-! ## A vector laid along every row -/

/-- The kernel's spelling: the vector cast to one row, the row broadcast down `m` rows. At `(p, q)` it is entry `q`. -/
theorem rowVec_kernel_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have e : q.val < n := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 to one row, the row broadcast along both axes. At `(p, q)`
    it is entry `q`. -/
theorem rowVec_host_apply {m n : Nat} (x : (⟨1, ![n]⟩ : Shape).Idx → α)
    (hd1 : (⟨1, ![n]⟩ : Shape).BroadcastsInDim ⟨2, ![1, n]⟩ ![1])
    (hd : (⟨2, ![1, n]⟩ : Shape).BroadcastsInDim ⟨2, ![m, n]⟩ ![0, 1]) (p : Fin m) (q : Fin n) :
    broadcastInDim ⟨2, ![m, n]⟩ ![0, 1] hd (broadcastInDim ⟨2, ![1, n]⟩ ![1] hd1 x) (ix2 p q) = x (ix1 q) := by
  rw [broadcastInDim_oneRow_apply]
  refine broadcastInDim_apply ![1] hd1 x (ix2 (0 : Fin 1) q) (ix1 q) ?_
  intro a
  match a with
  | ⟨0, _⟩ =>
    show q.val = if n = 1 then 0 else q.val
    split
    · have e : q.val < n := q.isLt; omega
    · rfl

/-! ## A column of per-row results laid along every column -/

/-- The kernel's spelling: the vector of row results cast to one column, the column broadcast along the rows. At
    `(p, q)` it is entry `p`. -/
theorem colVec_kernel_apply {a b : Nat} (v : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v h1) hb (ix2 p q) = v (ix1 p) := by
  rw [Cert.SupCon.Ker.broadcastTo_a1_ab_apply, Cert.SupCon.Ker.shapeCast_a_a1_apply]

/-- The host's column laid along the columns: one column broadcast along both axes reads, at `(p, q)`, its entry `(p, 0)`. -/
theorem colBcast_host_apply {a b : Nat} (y : (⟨2, ![a, 1]⟩ : Shape).Idx → α)
    (hd : (⟨2, ![a, 1]⟩ : Shape).BroadcastsInDim ⟨2, ![a, b]⟩ ![0, 1]) (p : Fin a) (q : Fin b) :
    broadcastInDim ⟨2, ![a, b]⟩ ![0, 1] hd y (ix2 p q) = y (ix2 p (0 : Fin 1)) :=
  broadcastInDim_apply ![0, 1] hd y (ix2 p q) (ix2 p (0 : Fin 1)) (by
    intro ax
    match ax with
    | ⟨0, _⟩ =>
      show p.val = if a = 1 then 0 else p.val
      split
      · have e : p.val < a := p.isLt; omega
      · rfl
    | ⟨1, _⟩ => rfl)

/-- The host's vector as one column: broadcast along axis 0 it reads, at `(p, 0)`, entry `p`. -/
theorem col1_host_apply {a : Nat} (v : (⟨1, ![a]⟩ : Shape).Idx → α)
    (hd0 : (⟨1, ![a]⟩ : Shape).BroadcastsInDim ⟨2, ![a, 1]⟩ ![0]) (p : Fin a) :
    broadcastInDim ⟨2, ![a, 1]⟩ ![0] hd0 v (ix2 p (0 : Fin 1)) = v (ix1 p) :=
  broadcastInDim_apply ![0] hd0 v (ix2 p (0 : Fin 1)) (ix1 p) (by
    intro ax
    match ax with
    | ⟨0, _⟩ =>
      show p.val = if a = 1 then 0 else p.val
      split
      · have e : p.val < a := p.isLt; omega
      · rfl)

/-- The host's spelling: the vector broadcast along axis 0 to one column, the column broadcast along both axes. At
    `(p, q)` it is entry `p`. -/
theorem colVec_host_apply {a b : Nat} (v : (⟨1, ![a]⟩ : Shape).Idx → α)
    (hd0 : (⟨1, ![a]⟩ : Shape).BroadcastsInDim ⟨2, ![a, 1]⟩ ![0])
    (hd : (⟨2, ![a, 1]⟩ : Shape).BroadcastsInDim ⟨2, ![a, b]⟩ ![0, 1]) (p : Fin a) (q : Fin b) :
    broadcastInDim ⟨2, ![a, b]⟩ ![0, 1] hd (broadcastInDim ⟨2, ![a, 1]⟩ ![0] hd0 v) (ix2 p q) = v (ix1 p) := by
  rw [colBcast_host_apply, col1_host_apply]

/-! ## The pointwise transcendentals at an index -/

theorem hostLog_apply {s : Shape} {φ : FTy} (x : FVec Ideal s φ) (i : s.Idx) : Host.log x i = Ideal.log (x i) := rfl
theorem hostExp_apply {s : Shape} {φ : FTy} (x : FVec Ideal s φ) (i : s.Idx) : Host.exp x i = Ideal.exp (x i) := rfl
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

/-! ## The maximum and the sum of a row -/

/-- The kernel's maximum along the rows, at row `p`: the fold of `max` from the accumulator's value over the row. -/
theorem rowMax_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) := by
  rw [Ideal.multiReduction_maximumf_single]
  have hf : (src ∘ h.lift (ix1 p)) = fun k : Fin b => src (ix2 p k) :=
    funext fun k => congrArg src (Cert.SupCon.Ker.lift_rows h p k)
  exact congrArg (fun f => Finset.fold max (FloatOps.ofBits φ acc) f (Finset.univ : Finset (Fin b))) hf

/-- The host's maximum along the rows, at row `p`: the fold of `max` from the initial value over the row. -/
theorem rowMax_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) :=
    funext fun k => congrArg x (Cert.SupCon.Ker.lift_rows h p k)
  exact congrArg (fun f => Finset.fold max (init (Shape.Idx.first hu)) f (Finset.univ : Finset (Fin b))) hf

/-- The kernel's sum along the rows, at row `p`: the sum of the row (the neutral accumulator adds nothing). -/
theorem rowSum_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (Cert.SupCon.Ker.lift_rows h p k)

/-- The host's sum along the rows, at row `p`: the initial value plus the sum of the row. -/
theorem rowSum_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  show Ideal.hostReduceAdd h' x (init (Shape.Idx.first hu)) (ix1 p) = _
  rw [Ideal.hostReduceAdd_single h' h]
  exact congrArg (_ + ·) (Finset.sum_congr rfl fun k _ => congrArg x (Cert.SupCon.Ker.lift_rows h p k))

/-! ## The host's plain matrix product -/

/-- Rows against columns on the host, `[m, k] × [k, n] → [m, n]`: at `(a, b)` the sum over the contracted coordinate
    of the products of the two entries. -/
theorem dotGeneral_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) :=
  (congrFun (matmul_zero_eq_dotGeneral (⟨[1], [0], [0], [1], [], [], w⟩ : DotDims _ _ _) prec A B) (ix2 a b)).symm.trans
    (DotIdx.matmul_plain_zero_apply w prec A B a b)

end Cert.LibRowOps

end
-- ==== Proof.KLayers.lean ====
/-
  The kernel body's arithmetic on one block of 1024 points, layer by layer.

  The body's stored value is a composition of a few whole-block functions: the angles of the block's points, the
  first layer (sines and cosines against the two halves of `W₀`), a matrix product with one of the seven stacked
  hidden matrices (`blkMM`), a bias laid along every row followed by `tanh` (`blkBT`), and the last affine map
  (`blkOut`).  Each of them is ROW-LOCAL: row `p` of the result depends on row `p` of the operand only.  Read at an
  index, row `p` of each stage is the corresponding stage of the network `Cert.Mlp` at the block's point `p`; a
  change of float format is the identity on the extended reals, and a matrix product into the zero accumulator is
  the plain sum over the contracted coordinate.
-/
import proofs.«114249_j23845658427755_1_alg».proof.Proof.Gen.KernelIdeal.Frame
import proofs.«114249_j23845658427755_1_alg».proof.Proof.Spec
import proofs.«114249_j23845658427755_1_alg».proof.Proof.LibDotIdx
import proofs.«114249_j23845658427755_1_alg».proof.Proof.LibKeepdims
import proofs.«114249_j23845658427755_1_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.TcCoe Idealize.ShloMosaic.ValueIdx

/-! ## The body's stages as whole-block functions -/

section Stages
variable {F : FTy → Type} [FloatOps F]

/-- A block of activations times one of the stacked hidden matrices (given as a `[1, 256, 256]` slab). -/
def blkMM (v : FVec F S1024x256 .f32) (W : Vec F S1x256x256 .bf16) : FVec F S1024x256 .f32 :=
  matmul dot_S1024x256_S256x256_S1024x256_1_0_0_1_n_n none (truncf .bf16 v bitsLt_bf16_f32)
    (shapeCast S256x256 W shapeCasts_S1x256x256_S256x256) (constant S1024x256 .f32 0x00000000#32)

/-- A block of activations times a `[256, 256]` matrix (one half of `W₀`). -/
def blkMM0 (v : FVec F S1024x256 .f32) (W : Vec F S256x256 .bf16) : FVec F S1024x256 .f32 :=
  matmul dot_S1024x256_S256x256_S1024x256_1_0_0_1_n_n none (truncf .bf16 v bitsLt_bf16_f32)
    (shapeCast S256x256 W shapeCasts_S256x256_S256x256) (constant S1024x256 .f32 0x00000000#32)

/-- A bias vector added along every row, then `tanh`. -/
def blkBT (a : FVec F S1024x256 .f32) (b : FVec F S256 .f32) : FVec F S1024x256 .f32 :=
  tanh (addf a (broadcastTo S1024x256 (shapeCast S1x256 b shapeCasts_S256_S1x256) broadcasts_S1x256_S1024x256))

/-- One row of the stacked biases (a `[1, 256]` slab) as a vector. -/
def blkRow (b : Vec F S1x256 .f32) : FVec F S256 .f32 := shapeCast S256 b shapeCasts_S1x256_S256

/-- The angles of a block's points. -/
def blkAng (v0 : Vec F S1024x2 .f32) (v1 : Vec F S2x256 .f32) : FVec F S1024x256 .f32 :=
  mulf (broadcast S1024x256 (Scalar.ofBits .f32 0x40C90FDB#32))
    (addf
      (mulf (broadcastTo S1024x256 (extractStridedSlice S1024x1 ![0, 0] v0 slices_S1024x2_o0_0_S1024x1) broadcasts_S1024x1_S1024x256)
        (broadcastTo S1024x256 (extractStridedSlice S1x256 ![0, 0] v1 slices_S2x256_o0_0_S1x256) broadcasts_S1x256_S1024x256))
      (mulf (broadcastTo S1024x256 (extractStridedSlice S1024x1 ![0, 1] v0 slices_S1024x2_o0_1_S1024x1) broadcasts_S1024x1_S1024x256)
        (broadcastTo S1024x256 (extractStridedSlice S1x256 ![1, 0] v1 slices_S2x256_o1_0_S1x256) broadcasts_S1x256_S1024x256)))

/-- The first layer on a block. -/
def blkFirst (v0 : Vec F S1024x2 .f32) (v1 : Vec F S2x256 .f32) (v19 v21 : Vec F S256x256 .bf16) (v26 : Vec F S256 .f32) :
    FVec F S1024x256 .f32 :=
  blkBT (addf (blkMM0 (sin (blkAng v0 v1)) v19) (blkMM0 (cos (blkAng v0 v1)) v21)) v26

/-- The last affine map on a block. -/
def blkOut (h : FVec F S1024x256 .f32) (w : Vec F S256x1 .bf16) (β : Vec F S1 .f32) : FVec F S1024x1 .f32 :=
  addf (matmul dot_S1024x256_S256x1_S1024x1_1_0_0_1_n_n none (truncf .bf16 h bitsLt_bf16_f32)
      (shapeCast S256x1 w shapeCasts_S256x1_S256x1) (constant S1024x1 .f32 0x00000000#32))
    (broadcastTo S1024x1 (shapeCast S1x1 β shapeCasts_S1_S1x1) broadcasts_S1x1_S1024x1)

/-- The body's four payloads are compositions of these stages. -/
theorem pay2_eq (v0 : Vec F S1024x2 .f32) (v1 : Vec F S2x256 .f32) (v19 v21 : Vec F S256x256 .bf16) (v26 : Vec F S256 .f32)
    (v32 : Vec F S1x256x256 .bf16) (v35 : Vec F S1x256 .f32) :
    k0_pay2 v0 v1 v19 v21 v26 v32 v35 = blkBT (blkMM (blkFirst v0 v1 v19 v21 v26) v32) (blkRow v35) := rfl

theorem pay3_eq (v40 : FVec F S1024x256 .f32) (v42 : Vec F S1x256x256 .bf16) (v45 : Vec F S1x256 .f32)
    (v52 : Vec F S1x256x256 .bf16) (v55 : Vec F S1x256 .f32) (v62 : Vec F S1x256x256 .bf16) (v65 : Vec F S1x256 .f32)
    (v72 : Vec F S1x256x256 .bf16) :
    k0_pay3 v40 v42 v45 v52 v55 v62 v65 v72
      = blkMM (blkBT (blkMM (blkBT (blkMM (blkBT (blkMM v40 v42) (blkRow v45)) v52) (blkRow v55)) v62) (blkRow v65)) v72 := rfl

theorem pay4_eq (v75 : Vec F S1x256 .f32) : k0_pay4 v75 = blkRow v75 := rfl

theorem pay1_eq (v74 : FVec F S1024x256 .f32) (v76 : FVec F S256 .f32) (v82 : Vec F S1x256x256 .bf16) (v85 : Vec F S1x256 .f32)
    (v92 : Vec F S1x256x256 .bf16) (v95 : Vec F S1x256 .f32) (v102 : Vec F S256x1 .bf16) (v105 : Vec F S1 .f32) :
    k0_pay1 v74 v76 v82 v85 v92 v95 v102 v105
      = blkOut (blkBT (blkMM (blkBT (blkMM (blkBT v74 v76) v82) (blkRow v85)) v92) (blkRow v95)) v102 v105 := rfl

end Stages

/-! ## Loads through the body's rectangles -/

theorem hz1 : (![0] : Fin 1 → Nat) = fun _ => 0 := funext fun a => by fin_cases a; rfl
theorem hz2 : (![0, 0] : Fin 2 → Nat) = fun _ => 0 := funext fun a => by fin_cases a <;> rfl

/-- A `[256, 256]` load from a `[512, 256]` buffer at row offset `o` reads rows `o … o + 255`. -/
theorem ld_half (x : Vec Ideal S512x256 .bf16) (o : Nat)
    (inb : ∀ a, (![o, 0] : Fin 2 → Nat) a + S256x256.size a ≤ S512x256.size a) (k q : Fin 256) (K : Fin 512)
    (hK : K.val = o + k.val) :
    View.ld x (Rect.unit (s := S512x256) ![o, 0] S256x256.size inb) (ix2 k q) = x (ix2 K q) := by
  show x ((Rect.unit (s := S512x256) ![o, 0] S256x256.size inb).idx (ix2 k q)) = x (ix2 K q)
  refine congrArg x (funext fun a => Fin.ext ?_)
  match a with
  | ⟨0, _⟩ => show o + 1 * k.val = K.val; omega
  | ⟨1, _⟩ => show 0 + 1 * q.val = q.val; omega

/-- A `[1, 256, 256]` load from the stacked matrices at slab `l` reads matrix `l`. -/
theorem ld_slab (x : Vec Ideal S7x256x256 .bf16) (l : Nat)
    (inb : ∀ a, (![l, 0, 0] : Fin 3 → Nat) a + S1x256x256.size a ≤ S7x256x256.size a) (u : Fin 1) (k q : Fin 256) (L : Fin 7)
    (hL : L.val = l) :
    View.ld x (Rect.unit (s := S7x256x256) ![l, 0, 0] S1x256x256.size inb) (ix3 u k q) = x (ix3 L k q) := by
  show x ((Rect.unit (s := S7x256x256) ![l, 0, 0] S1x256x256.size inb).idx (ix3 u k q)) = x (ix3 L k q)
  refine congrArg x (funext fun a => Fin.ext ?_)
  have hu : u.val = 0 := by omega
  match a with
  | ⟨0, _⟩ => show l + 1 * u.val = L.val; omega
  | ⟨1, _⟩ => show 0 + 1 * k.val = k.val; omega
  | ⟨2, _⟩ => show 0 + 1 * q.val = q.val; omega

/-- A `[1, 256]` load from the stacked biases at row `l` reads bias `l`. -/
theorem ld_biasRow (x : Vec Ideal S7x256 .f32) (l : Nat)
    (inb : ∀ a, (![l, 0] : Fin 2 → Nat) a + S1x256.size a ≤ S7x256.size a) (u : Fin 1) (q : Fin 256) (L : Fin 7)
    (hL : L.val = l) :
    View.ld x (Rect.unit (s := S7x256) ![l, 0] S1x256.size inb) (ix2 u q) = x (ix2 L q) := by
  show x ((Rect.unit (s := S7x256) ![l, 0] S1x256.size inb).idx (ix2 u q)) = x (ix2 L q)
  refine congrArg x (funext fun a => Fin.ext ?_)
  have hu : u.val = 0 := by omega
  match a with
  | ⟨0, _⟩ => show l + 1 * u.val = L.val; omega
  | ⟨1, _⟩ => show 0 + 1 * q.val = q.val; omega

/-! ## Each stage read at an index, at the extended reals -/

theorem blkMM_apply (v : FVec Ideal S1024x256 .f32) (W : Vec Ideal S1x256x256 .bf16) (p : Fin 1024) (q : Fin 256) :
    blkMM v W (ix2 p q) = ∑ k : Fin 256, v (ix2 p k) * W (ix3 (0 : Fin 1) k q) := by
  unfold blkMM
  refine (DotIdx.matmul_plain_zero_apply dot_S1024x256_S256x256_S1024x256_1_0_0_1_n_n_wf none _ _ p q).trans ?_
  refine Finset.sum_congr rfl fun k _ => ?_
  exact congrArg (v (ix2 p k) * ·) (shapeCast_1ab_ab_apply W shapeCasts_S1x256x256_S256x256 k q)

theorem blkMM0_apply (v : FVec Ideal S1024x256 .f32) (W : Vec Ideal S256x256 .bf16) (p : Fin 1024) (q : Fin 256) :
    blkMM0 v W (ix2 p q) = ∑ k : Fin 256, v (ix2 p k) * W (ix2 k q) := by
  unfold blkMM0
  refine (DotIdx.matmul_plain_zero_apply dot_S1024x256_S256x256_S1024x256_1_0_0_1_n_n_wf none _ _ p q).trans ?_
  refine Finset.sum_congr rfl fun k _ => ?_
  exact congrArg (v (ix2 p k) * ·) (congrFun (shapeCast_self W shapeCasts_S256x256_S256x256) (ix2 k q))

theorem blkBT_apply (a : FVec Ideal S1024x256 .f32) (b : FVec Ideal S256 .f32) (p : Fin 1024) (q : Fin 256) :
    blkBT a b (ix2 p q) = Ideal.tanh (a (ix2 p q) + b (ix1 q)) := by
  unfold blkBT
  exact congrArg (fun z => Ideal.tanh (a (ix2 p q) + z))
    (Cert.LibRowOps.rowVec_kernel_apply b shapeCasts_S256_S1x256 broadcasts_S1x256_S1024x256 p q)

theorem blkRow_apply (b : Vec Ideal S1x256 .f32) (q : Fin 256) : blkRow b (ix1 q) = b (ix2 (0 : Fin 1) q) :=
  shapeCast_1a_a_apply b shapeCasts_S1x256_S256 q

/-- Row `p` after a hidden layer is the network's hidden layer of row `p` before it. -/
theorem dense_row (v : FVec Ideal S1024x256 .f32) (W : Vec Ideal S1x256x256 .bf16) (b : Vec Ideal S1x256 .f32) (p : Fin 1024) :
    (fun q : Fin 256 => blkBT (blkMM v W) (blkRow b) (ix2 p q))
      = Cert.Mlp.dense (fun k => v (ix2 p k)) (fun k q => W (ix3 (0 : Fin 1) k q)) (fun q => b (ix2 (0 : Fin 1) q)) := by
  funext q
  rw [blkBT_apply, blkMM_apply, blkRow_apply]
  rfl

/-- The angle of feature `j` at the block's point `p`. -/
theorem blkAng_apply (v0 : Vec Ideal S1024x2 .f32) (v1 : Vec Ideal S2x256 .f32) (p : Fin 1024) (j : Fin 256) :
    blkAng v0 v1 (ix2 p j) = Cert.Mlp.angle (fun k => v0 (ix2 p k)) (fun a j => v1 (ix2 a j)) j := by
  have e1 := Cert.SupCon.Ker.broadcastTo_a1_ab_apply (extractStridedSlice S1024x1 ![0, 0] v0 slices_S1024x2_o0_0_S1024x1)
    broadcasts_S1024x1_S1024x256 p j
  have e2 := Cert.SupCon.Ker.broadcastTo_a1_ab_apply (extractStridedSlice S1024x1 ![0, 1] v0 slices_S1024x2_o0_1_S1024x1)
    broadcasts_S1024x1_S1024x256 p j
  have e3 := broadcastTo_1b_ab_apply (extractStridedSlice S1x256 ![0, 0] v1 slices_S2x256_o0_0_S1x256)
    broadcasts_S1x256_S1024x256 p j
  have e4 := broadcastTo_1b_ab_apply (extractStridedSlice S1x256 ![1, 0] v1 slices_S2x256_o1_0_S1x256)
    broadcasts_S1x256_S1024x256 p j
  have s1 := slice2_axis1_apply 0 v0 slices_S1024x2_o0_0_S1024x1 p (0 : Fin 1) (0 : Fin 2) rfl
  have s2 := slice2_axis1_apply 1 v0 slices_S1024x2_o0_1_S1024x1 p (0 : Fin 1) (1 : Fin 2) rfl
  have s3 := slice2_axis0_apply 0 v1 slices_S2x256_o0_0_S1x256 (0 : Fin 1) j (0 : Fin 2) rfl
  have s4 := slice2_axis0_apply 1 v1 slices_S2x256_o1_0_S1x256 (0 : Fin 1) j (1 : Fin 2) rfl
  unfold blkAng Cert.Mlp.angle Cert.Mlp.scale
  show Ideal.ofBits .f32 0x40C90FDB#32 * (_ * _ + _ * _) = _
  rw [e1, e2, e3, e4, s1, s2, s3, s4]

/-- Row `p` after the first layer is the network's first layer at the block's point `p`, for any `[512, 256]`
    matrix whose upper and lower halves the two loaded halves are. -/
theorem first_row (v0 : Vec Ideal S1024x2 .f32) (v1 : Vec Ideal S2x256 .f32) (v19 v21 : Vec Ideal S256x256 .bf16)
    (v26 : Vec Ideal S256 .f32) (W0 : Fin 512 → Fin 256 → EReal)
    (h19 : ∀ k q, v19 (ix2 k q) = W0 (Cert.Mlp.lo k) q) (h21 : ∀ k q, v21 (ix2 k q) = W0 (Cert.Mlp.hi k) q) (p : Fin 1024) :
    (fun q : Fin 256 => blkFirst v0 v1 v19 v21 v26 (ix2 p q))
      = Cert.Mlp.first (fun k => v0 (ix2 p k)) (fun a j => v1 (ix2 a j)) W0 (fun q => v26 (ix1 q)) := by
  funext q
  unfold blkFirst
  rw [blkBT_apply]
  show Ideal.tanh ((blkMM0 (sin (blkAng v0 v1)) v19 (ix2 p q) + blkMM0 (cos (blkAng v0 v1)) v21 (ix2 p q)) + v26 (ix1 q)) = _
  rw [blkMM0_apply, blkMM0_apply]
  unfold Cert.Mlp.first
  refine congrArg (fun z => Ideal.tanh (z + v26 (ix1 q))) ?_
  refine congrArg₂ (· + ·) (Finset.sum_congr rfl fun k _ => ?_) (Finset.sum_congr rfl fun k _ => ?_)
  · show Ideal.sin (blkAng v0 v1 (ix2 p k)) * v19 (ix2 k q) = _
    rw [blkAng_apply, h19]
  · show Ideal.cos (blkAng v0 v1 (ix2 p k)) * v21 (ix2 k q) = _
    rw [blkAng_apply, h21]

/-- Entry `(p, 0)` after the last affine map is the network's last map of row `p`. -/
theorem blkOut_apply (h : FVec Ideal S1024x256 .f32) (w : Vec Ideal S256x1 .bf16) (β : Vec Ideal S1 .f32) (p : Fin 1024) (u : Fin 1) :
    blkOut h w β (ix2 p u)
      = Cert.Mlp.last (fun k => h (ix2 p k)) (fun k => w (ix2 k (0 : Fin 1))) (β (ix1 (0 : Fin 1))) := by
  have hu : u = 0 := Subsingleton.elim _ _
  subst hu
  unfold blkOut Cert.Mlp.last
  refine congrArg₂ (· + ·) ?_ ?_
  · refine (DotIdx.matmul_plain_zero_apply dot_S1024x256_S256x1_S1024x1_1_0_0_1_n_n_wf none _ _ p (0 : Fin 1)).trans ?_
    refine Finset.sum_congr rfl fun k _ => ?_
    exact congrArg (h (ix2 p k) * ·) (congrFun (shapeCast_self w shapeCasts_S256x1_S256x1) (ix2 k (0 : Fin 1)))
  · exact Cert.LibRowOps.rowVec_kernel_apply β shapeCasts_S1_S1x1 broadcasts_S1x1_S1024x1 p (0 : Fin 1)

end Cert.KernelIdeal.Body

end
-- ==== Proof.KBody.lean ====
/-
  What the kernel body leaves in its output block, read at an index.

  The body stores one value, through the whole-block rectangle: the last affine map of the seventh hidden layer of …
  of the first layer of the block's 1024 points.  Every stage is row-local (`KLayers`), so entry `(p, 0)` of the block is
  the network `Cert.Mlp.mlp` at the block's point `p`, with the weights as the body loads them: the two halves of `W₀`
  are rows `0 … 255` and `256 … 511` of the staged matrix, hidden matrix `l` and bias `l` are slab `l` and row `l` of the
  staged stacks.
-/
import proofs.«114249_j23845658427755_1_alg».proof.Proof.KLayers

noncomputable section

namespace Cert.KernelIdeal.Body

open Cert.KernelIdeal Cert.KernelIdeal.Gen Idealize.ShloMosaic Idealize.ShloMosaic.TcCoe Idealize.ShloMosaic.ValueIdx

variable (x0 : Vec Ideal S1024x2 .f32) (x1 : Vec Ideal S2x256 .f32) (x2 : Vec Ideal S512x256 .bf16) (x3 : Vec Ideal S256 .f32)
  (x4 : Vec Ideal S7x256x256 .bf16) (x5 : Vec Ideal S7x256 .f32) (x6 : Vec Ideal S256x1 .bf16) (x7 : Vec Ideal S1 .f32)

/-- The output block after the body, at `(p, 0)`: the network at the block's point `p`. -/
theorem out_apply (p : Fin 1024) (u : Fin 1) :
    out0_8 x0 x1 x2 x3 x4 x5 x6 x7 (ix2 p u)
      = Cert.Mlp.mlp (fun k => x0 (ix2 p k)) (fun a j => x1 (ix2 a j)) (fun k q => x2 (ix2 k q)) (fun q => x3 (ix1 q))
          (fun l k q => x4 (ix3 l k q)) (fun l q => x5 (ix2 l q)) (fun k => x6 (ix2 k (0 : Fin 1))) (x7 (ix1 (0 : Fin 1))) := by
  unfold out0_8
  rw [View.canon_unit_zero hz2]
  rw [pay1_eq, pay3_eq, pay2_eq, pay4_eq]
  simp only [View.ld_unit_zero (S := S1024x2) hz2, View.ld_unit_zero (S := S2x256) hz2, View.ld_unit_zero (S := S256) hz1,
    View.ld_unit_zero (S := S256x1) hz2, View.ld_unit_zero (S := S1) hz1]
  unfold Cert.Mlp.mlp Cert.Mlp.hidden
  rw [blkOut_apply, dense_row, dense_row, dense_row, dense_row, dense_row, dense_row, dense_row,
    first_row x0 x1 _ _ x3 (fun k q => x2 (ix2 k q))
      (fun k q => ld_half x2 0 _ k q (Cert.Mlp.lo k) (by show k.val = 0 + k.val; omega))
      (fun k q => ld_half x2 256 _ k q (Cert.Mlp.hi k) rfl) p]
  simp only [ld_slab x4 0 _ _ _ _ (0 : Fin 7) rfl, ld_slab x4 1 _ _ _ _ (1 : Fin 7) rfl, ld_slab x4 2 _ _ _ _ (2 : Fin 7) rfl,
    ld_slab x4 3 _ _ _ _ (3 : Fin 7) rfl, ld_slab x4 4 _ _ _ _ (4 : Fin 7) rfl, ld_slab x4 5 _ _ _ _ (5 : Fin 7) rfl,
    ld_slab x4 6 _ _ _ _ (6 : Fin 7) rfl,
    ld_biasRow x5 0 _ _ _ (0 : Fin 7) rfl, ld_biasRow x5 1 _ _ _ (1 : Fin 7) rfl, ld_biasRow x5 2 _ _ _ (2 : Fin 7) rfl,
    ld_biasRow x5 3 _ _ _ (3 : Fin 7) rfl, ld_biasRow x5 4 _ _ _ (4 : Fin 7) rfl, ld_biasRow x5 5 _ _ _ (5 : Fin 7) rfl,
    ld_biasRow x5 6 _ _ _ (6 : Fin 7) rfl]

end Cert.KernelIdeal.Body

end
-- ==== Proof.Blocks.lean ====
/-
  From the blocks to the whole result array.

  The grid has 256 points; point `t` stages rows `1024·t … 1024·t + 1023` of the input array and the whole of every
  weight array (the three matrices that the body multiplies by are staged from their copies in the narrower float
  format, which on the extended reals are the matrices themselves), runs the body, and writes its `[1024, 1]` block back
  to rows `1024·t … 1024·t + 1023` of the result.  By `KBody` the block written at `t` is the restriction of ONE
  whole-array function, `Cert.Mlp.G` of the argument arrays: entry `(1024·t + p, 0)` is the network at input row
  `1024·t + p`.  The 256 blocks cover the result's 262144 rows (row `r` lies in the block of point `r / 1024`), so the
  result array after the run is `G` of the arguments.
-/
import proofs.«114249_j23845658427755_1_alg».proof.Proof.Gen.KernelIdeal.Value
import proofs.«114249_j23845658427755_1_alg».proof.Proof.KBody
import Idealize.ShloMosaic.Lib.StableHlo.Run

noncomputable section

namespace Cert.KernelIdeal.BlockValue

open Cert.KernelIdeal Cert.KernelIdeal.Gen Cert.KernelIdeal.Value Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

/-! ## The index maps, decided over the grid -/

/-- The input and the result move with the point along the rows; every weight window stays at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-! ## The staged copies of the three matrices -/

/-- The copy of `W₀` the region finds is `W₀`. -/
theorem V_v0 (c : Dev nD) : (V m c main_v0 : S512x256.Idx → EReal) = fun i => (m ((c : Thread nD τ).loc main_arg2)) i := by
  dsimp only [Gen.V, Gen.hostOps0]; after_results; rfl

/-- The copy of the stacked hidden matrices the region finds is the stack. -/
theorem V_v1 (c : Dev nD) : (V m c main_v1 : S7x256x256.Idx → EReal) = fun i => (m ((c : Thread nD τ).loc main_arg4)) i := by
  dsimp only [Gen.V, Gen.hostOps0]; after_results; rfl

/-- The copy of the last layer's column the region finds is the column. -/
theorem V_v2 (c : Dev nD) : (V m c main_v2 : S256x1.Idx → EReal) = fun i => (m ((c : Thread nD τ).loc main_arg6)) i := by
  dsimp only [Gen.V, Gen.hostOps0]; after_results; rfl

/-! ## Each window's block at a point, read at an index -/

/-- Row `p` of the input block at point `t` is input row `1024·t + p`. -/
theorem blk0 (c : Dev nD) (t : Fin cfg0.N) (p : Fin 1024) (k : Fin 2) (R : Fin 262144) (hR : R.val = t.val * 1024 + p.val) :
    iblk m c 0 t (ix2 p k) = (m ((c : Thread nD τ).loc main_arg0)) (ix2 R k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = R.val; omega
  | ⟨1, _⟩ => show win0_0.index t (1 : Fin 2) * 2 + 1 * k.val = k.val; omega

theorem blk1 (c : Dev nD) (t : Fin cfg0.N) (a : Fin 2) (j : Fin 256) :
    iblk m c 1 t (ix2 a j) = (m ((c : Thread nD τ).loc main_arg1)) (ix2 a j) := by
  obtain ⟨-, -, e0, e1, -⟩ := idx_facts t
  show V m c main_arg1 (((cfg0.win 1).blk t).view.emb (ix2 a j)) = _
  rw [V_main_arg1]
  refine congrArg _ (funext fun b => Fin.ext ?_)
  match b with
  | ⟨0, _⟩ => show win0_1.index t (0 : Fin 2) * 2 + 1 * a.val = a.val; omega
  | ⟨1, _⟩ => show win0_1.index t (1 : Fin 2) * 256 + 1 * j.val = j.val; omega

theorem blk2 (c : Dev nD) (t : Fin cfg0.N) (k : Fin 512) (q : Fin 256) :
    iblk m c 2 t (ix2 k q) = (m ((c : Thread nD τ).loc main_arg2)) (ix2 k q) := by
  obtain ⟨-, -, -, -, e0, e1, -⟩ := idx_facts t
  show V m c main_v0 (((cfg0.win 2).blk t).view.emb (ix2 k q)) = _
  rw [V_v0]
  refine congrArg (m ((c : Thread nD τ).loc main_arg2)) (funext fun b => Fin.ext ?_)
  match b with
  | ⟨0, _⟩ => show win0_2.index t (0 : Fin 2) * 512 + 1 * k.val = k.val; omega
  | ⟨1, _⟩ => show win0_2.index t (1 : Fin 2) * 256 + 1 * q.val = q.val; omega

theorem blk3 (c : Dev nD) (t : Fin cfg0.N) (q : Fin 256) :
    iblk m c 3 t (ix1 q) = (m ((c : Thread nD τ).loc main_arg3)) (ix1 q) := by
  obtain ⟨-, -, -, -, -, -, e0, -⟩ := idx_facts t
  show V m c main_arg3 (((cfg0.win 3).blk t).view.emb (ix1 q)) = _
  rw [V_main_arg3]
  refine congrArg _ (funext fun b => Fin.ext ?_)
  match b with
  | ⟨0, _⟩ => show win0_3.index t (0 : Fin 1) * 256 + 1 * q.val = q.val; omega

theorem blk4 (c : Dev nD) (t : Fin cfg0.N) (l : Fin 7) (k q : Fin 256) :
    iblk m c 4 t (ix3 l k q) = (m ((c : Thread nD τ).loc main_arg4)) (ix3 l k q) := by
  obtain ⟨-, -, -, -, -, -, -, e0, e1, e2, -⟩ := idx_facts t
  show V m c main_v1 (((cfg0.win 4).blk t).view.emb (ix3 l k q)) = _
  rw [V_v1]
  refine congrArg (m ((c : Thread nD τ).loc main_arg4)) (funext fun b => Fin.ext ?_)
  match b with
  | ⟨0, _⟩ => show win0_4.index t (0 : Fin 3) * 7 + 1 * l.val = l.val; omega
  | ⟨1, _⟩ => show win0_4.index t (1 : Fin 3) * 256 + 1 * k.val = k.val; omega
  | ⟨2, _⟩ => show win0_4.index t (2 : Fin 3) * 256 + 1 * q.val = q.val; omega

theorem blk5 (c : Dev nD) (t : Fin cfg0.N) (l : Fin 7) (q : Fin 256) :
    iblk m c 5 t (ix2 l q) = (m ((c : Thread nD τ).loc main_arg5)) (ix2 l q) := by
  obtain ⟨-, -, -, -, -, -, -, -, -, -, e0, e1, -⟩ := idx_facts t
  show V m c main_arg5 (((cfg0.win 5).blk t).view.emb (ix2 l q)) = _
  rw [V_main_arg5]
  refine congrArg _ (funext fun b => Fin.ext ?_)
  match b with
  | ⟨0, _⟩ => show win0_5.index t (0 : Fin 2) * 7 + 1 * l.val = l.val; omega
  | ⟨1, _⟩ => show win0_5.index t (1 : Fin 2) * 256 + 1 * q.val = q.val; omega

theorem blk6 (c : Dev nD) (t : Fin cfg0.N) (k : Fin 256) (u : Fin 1) :
    iblk m c 6 t (ix2 k u) = (m ((c : Thread nD τ).loc main_arg6)) (ix2 k u) := by
  obtain ⟨-, -, -, -, -, -, -, -, -, -, -, -, e0, e1, -⟩ := idx_facts t
  show V m c main_v2 (((cfg0.win 6).blk t).view.emb (ix2 k u)) = _
  rw [V_v2]
  refine congrArg (m ((c : Thread nD τ).loc main_arg6)) (funext fun b => Fin.ext ?_)
  match b with
  | ⟨0, _⟩ => show win0_6.index t (0 : Fin 2) * 256 + 1 * k.val = k.val; omega
  | ⟨1, _⟩ => show win0_6.index t (1 : Fin 2) * 1 + 1 * u.val = u.val; omega

theorem blk7 (c : Dev nD) (t : Fin cfg0.N) (u : Fin 1) :
    iblk m c 7 t (ix1 u) = (m ((c : Thread nD τ).loc main_arg7)) (ix1 u) := by
  obtain ⟨-, -, -, -, -, -, -, -, -, -, -, -, -, -, e0, -⟩ := idx_facts t
  show V m c main_arg7 (((cfg0.win 7).blk t).view.emb (ix1 u)) = _
  rw [V_main_arg7]
  refine congrArg _ (funext fun b => Fin.ext ?_)
  match b with
  | ⟨0, _⟩ => show win0_7.index t (0 : Fin 1) * 1 + 1 * u.val = u.val; omega

/-! ## What a point writes back, and the result array -/

/-- WHAT POINT `t` WRITES BACK is block `t` of `G` of the argument arrays. -/
theorem flushed_eq (c : Dev nD) (t : Fin cfg0.N) :
    (dats m 0 c).flushed 8 t = ((cfg0.win 8).blk t).view.read (Elt Ideal)
      (Cert.Mlp.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Value.flushed8]
  refine funext fun (y : S1024x1.Idx) => ?_
  obtain ⟨p, u, rfl⟩ : ∃ (p : Fin 1024) (u : Fin 1), y = ix2 p u := ⟨y 0, y 1, eq_ix2 y⟩
  obtain ⟨-, -, -, -, -, -, -, -, -, -, -, -, -, -, -, e0, e1⟩ := idx_facts t
  have htN : t.val < 256 := by have := t.isLt; have hN : cfg0.N = 256 := N_0; omega
  obtain ⟨R, hR⟩ : ∃ R : Fin 262144, R.val = t.val * 1024 + p.val := ⟨⟨t.val * 1024 + p.val, by have := p.isLt; omega⟩, rfl⟩
  have hemb : ((cfg0.win 8).blk t).view.emb (ix2 p u) = ix2 R (0 : Fin 1) := by
    funext a; apply Fin.ext
    have hu : u.val = 0 := by omega
    match a with
    | ⟨0, _⟩ => show win0_8.index t (0 : Fin 2) * 1024 + 1 * p.val = R.val; omega
    | ⟨1, _⟩ => show win0_8.index t (1 : Fin 2) * 1 + 1 * u.val = 0; omega
  show out0_8 (iblk m c 0 t) (iblk m c 1 t) (iblk m c 2 t) (iblk m c 3 t) (iblk m c 4 t) (iblk m c 5 t) (iblk m c 6 t) (iblk m c 7 t) (ix2 p u)
    = Cert.Mlp.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 8).blk t).view.emb (ix2 p u))
  rw [hemb]
  refine (Body.out_apply (iblk m c 0 t) (iblk m c 1 t) (iblk m c 2 t) (iblk m c 3 t) (iblk m c 4 t) (iblk m c 5 t) (iblk m c 6 t) (iblk m c 7 t) p u).trans ?_
  have h0 : ∀ k, iblk m c 0 t (ix2 p k) = (m ((c : Thread nD τ).loc main_arg0)) (ix2 R k) := fun k => blk0 m c t p k R hR
  simp only [h0, blk1 m c t, blk2 m c t, blk3 m c t, blk4 m c t, blk5 m c t, blk6 m c t, blk7 m c t]
  rfl

/-- An index of the result is in point `t`'s block iff each coordinate is in the block's range on its axis. -/
theorem mem_blk (t : Fin cfg0.N) (i : S262144x1.Idx) :
    i ∈ ((cfg0.win 8).blk t).view.set ↔ ∀ a : Fin 2, win0_8.index t a * S1024x1.size a ≤ (i a).val ∧ (i a).val < win0_8.index t a * S1024x1.size a + S1024x1.size a := by
  show i ∈ ((View.whole main_v3).slice (win0_8.rect t)).set ↔ _
  rw [View.set_slice_whole, Rect.mem_set_unit]
  exact Iff.rfl

/-- Every row of the result lies in the block of the point `row / 1024`. -/
theorem cover (i : S262144x1.Idx) : ∃ t : Fin cfg0.N, (cfg0.win 8).flush t = true ∧ i ∈ ((cfg0.win 8).blk t).view.set := by
  have hi0 : (i 0).val < 262144 := (i 0).isLt
  have hi1 : (i 1).val < 1 := (i 1).isLt
  have hN : cfg0.N = 256 := N_0
  obtain ⟨t, ht⟩ : ∃ t : Fin cfg0.N, t.val = (i 0).val / 1024 := ⟨⟨(i 0).val / 1024, by omega⟩, rfl⟩
  obtain ⟨-, -, -, -, -, -, -, -, -, -, -, -, -, -, -, e0, e1⟩ := idx_facts t
  refine ⟨t, flush0_8 t, ?_⟩
  rw [mem_blk]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 1 ≤ (i 1).val ∧ (i 1).val < win0_8.index t (1 : Fin 2) * 1 + 1; omega

/-- THE RESULT ARRAY after the run is `G` of the argument arrays. -/
theorem final (c : Dev nD) :
    (dats m 0 c).arrAt 8 cfg0.N = Cert.Mlp.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 8 _ (fun t _ => flushed_eq m c t) cover

/-- The kernel's run: the result at `G` of the arguments, the arguments unchanged. -/
theorem run : θ_run defs (onTc (τ := τ) (main (F := Ideal))) ⟨m, fun _ => 0, ρ⟩ fun r => ∀ c : Dev nD,
      r.2.mem ((c : Thread nD τ).loc main_v3) = Cert.Mlp.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.BlockValue

end
-- ==== Proof.RefBody.lean ====
/-
  The reference program's stages on the whole batch of 262144 points, read at an index.

  The reference computes the same chain as a sequence of whole-array operations: the angles `c · (x · P)`, the
  concatenation of their sines and cosines along the feature axis, the first layer against all of `W₀`, seven hidden
  layers each against one slab of the stacked matrices and one row of the stacked biases, and the last affine map.
  Every stage is row-local.  Row `r` of each stage is the corresponding stage of the network `Cert.Mlp` at input
  row `r`; for the first layer the sum over the 512 concatenated features splits into the sum over the sines against
  the upper half of `W₀` and the sum over the cosines against the lower half (`Cert.Mlp.sum_halves`).
-/
import proofs.«114249_j23845658427755_1_alg».proof.Proof.Gen.ReferenceIdeal.Read
import proofs.«114249_j23845658427755_1_alg».proof.Proof.Spec
import proofs.«114249_j23845658427755_1_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefBody

open Cert.ReferenceIdeal Cert.ReferenceIdeal.Gen Cert.ReferenceIdeal.Read Idealize.ShloMosaic Idealize.ShloMosaic.TcCoe
  Idealize.ShloMosaic.ValueIdx

/-! ## The stages as whole-array functions -/

section Stages
variable {F : FTy → Type} [FloatOps F]

/-- The angles of all points. -/
def refAng (x0 : (⟨S262144x2, .f32⟩ : BufTy).Contents (Elt F)) (x1 : (⟨S2x256, .f32⟩ : BufTy).Contents (Elt F)) :
    (⟨S262144x256, .f32⟩ : BufTy).Contents (Elt F) :=
  mulf (broadcastInDim S262144x256 ![] bcast_S_S262144x256 (constant S_ .f32 0x40C90FDB#32))
    (Host.dotGeneral dot_S262144x2_S2x256_S262144x256_1_0_0_1_n_n none x0 x1)

/-- The first layer on all points. -/
def refFirst (x0 : (⟨S262144x2, .f32⟩ : BufTy).Contents (Elt F)) (x1 : (⟨S2x256, .f32⟩ : BufTy).Contents (Elt F))
    (x2 : (⟨S512x256, .f32⟩ : BufTy).Contents (Elt F)) (x3 : (⟨S256, .f32⟩ : BufTy).Contents (Elt F)) :
    (⟨S262144x256, .f32⟩ : BufTy).Contents (Elt F) :=
  Host.tanh (addf
    (Host.dotGeneral dot_S262144x512_S512x256_S262144x256_1_0_0_1_n_n none
      (concatenate S262144x512 1 [⟨S262144x256, Host.sin (refAng x0 x1)⟩, ⟨S262144x256, Host.cos (refAng x0 x1)⟩]
        concatenates_S262144x256_S262144x256_S262144x512_d1) x2)
    (broadcastInDim S262144x256 ![0, 1] bcast_S1x256_S262144x256_0_1 (broadcastInDim S1x256 ![1] bcast_S256_S1x256_1 x3)))

/-- One hidden layer on all points: the slab of the stacked matrices at offsets `o3`, the row of the stacked biases at `o2`. -/
def refLayer (o3 : Fin 3 → Nat) (h3 : S7x256x256.Slices o3 S1x256x256) (o2 : Fin 2 → Nat) (h2 : S7x256.Slices o2 S1x256)
    (h : (⟨S262144x256, .f32⟩ : BufTy).Contents (Elt F)) (x4 : (⟨S7x256x256, .f32⟩ : BufTy).Contents (Elt F))
    (x5 : (⟨S7x256, .f32⟩ : BufTy).Contents (Elt F)) : (⟨S262144x256, .f32⟩ : BufTy).Contents (Elt F) :=
  Host.tanh (addf
    (Host.dotGeneral dot_S262144x256_S256x256_S262144x256_1_0_0_1_n_n none h
      (shapeCast S256x256 (extractStridedSlice S1x256x256 o3 x4 h3) shapeCasts_S1x256x256_S256x256))
    (broadcastInDim S262144x256 ![0, 1] bcast_S1x256_S262144x256_0_1 (broadcastInDim S1x256 ![1] bcast_S256_S1x256_1
      (shapeCast S256 (extractStridedSlice S1x256 o2 x5 h2) shapeCasts_S1x256_S256))))

/-- The last affine map on all points. -/
def refOut (h : (⟨S262144x256, .f32⟩ : BufTy).Contents (Elt F)) (x6 : (⟨S256x1, .f32⟩ : BufTy).Contents (Elt F))
    (x7 : (⟨S1, .f32⟩ : BufTy).Contents (Elt F)) : (⟨S262144x1, .f32⟩ : BufTy).Contents (Elt F) :=
  addf (Host.dotGeneral dot_S262144x256_S256x1_S262144x1_1_0_0_1_n_n none h x6)
    (broadcastInDim S262144x1 ![0, 1] bcast_S1x1_S262144x1_0_1 (broadcastInDim S1x1 ![1] bcast_S1_S1x1_1 x7))

variable (x0 : (⟨S262144x2, .f32⟩ : BufTy).Contents (Elt F)) (x1 : (⟨S2x256, .f32⟩ : BufTy).Contents (Elt F))
  (x2 : (⟨S512x256, .f32⟩ : BufTy).Contents (Elt F)) (x3 : (⟨S256, .f32⟩ : BufTy).Contents (Elt F))
  (x4 : (⟨S7x256x256, .f32⟩ : BufTy).Contents (Elt F)) (x5 : (⟨S7x256, .f32⟩ : BufTy).Contents (Elt F))
  (x6 : (⟨S256x1, .f32⟩ : BufTy).Contents (Elt F)) (x7 : (⟨S1, .f32⟩ : BufTy).Contents (Elt F))

/-- The program's stages are these functions, one after the other. -/
theorem v10_eq : val_main_v10 x0 x1 x2 x3 = refFirst x0 x1 x2 x3 := rfl
theorem v19_eq : val_main_v19 x0 x1 x2 x3 x4 x5
    = refLayer ![0, 0, 0] slices_S7x256x256_S1x256x256_0_0_0 ![0, 0] slices_S7x256_S1x256_0_0 (val_main_v10 x0 x1 x2 x3) x4 x5 := rfl
theorem v28_eq : val_main_v28 x0 x1 x2 x3 x4 x5
    = refLayer ![1, 0, 0] slices_S7x256x256_S1x256x256_1_0_0 ![1, 0] slices_S7x256_S1x256_1_0 (val_main_v19 x0 x1 x2 x3 x4 x5) x4 x5 := rfl
theorem v37_eq : val_main_v37 x0 x1 x2 x3 x4 x5
    = refLayer ![2, 0, 0] slices_S7x256x256_S1x256x256_2_0_0 ![2, 0] slices_S7x256_S1x256_2_0 (val_main_v28 x0 x1 x2 x3 x4 x5) x4 x5 := rfl
theorem v46_eq : val_main_v46 x0 x1 x2 x3 x4 x5
    = refLayer ![3, 0, 0] slices_S7x256x256_S1x256x256_3_0_0 ![3, 0] slices_S7x256_S1x256_3_0 (val_main_v37 x0 x1 x2 x3 x4 x5) x4 x5 := rfl
theorem v55_eq : val_main_v55 x0 x1 x2 x3 x4 x5
    = refLayer ![4, 0, 0] slices_S7x256x256_S1x256x256_4_0_0 ![4, 0] slices_S7x256_S1x256_4_0 (val_main_v46 x0 x1 x2 x3 x4 x5) x4 x5 := rfl
theorem v64_eq : val_main_v64 x0 x1 x2 x3 x4 x5
    = refLayer ![5, 0, 0] slices_S7x256x256_S1x256x256_5_0_0 ![5, 0] slices_S7x256_S1x256_5_0 (val_main_v55 x0 x1 x2 x3 x4 x5) x4 x5 := rfl
theorem v73_eq : val_main_v73 x0 x1 x2 x3 x4 x5
    = refLayer ![6, 0, 0] slices_S7x256x256_S1x256x256_6_0_0 ![6, 0] slices_S7x256_S1x256_6_0 (val_main_v64 x0 x1 x2 x3 x4 x5) x4 x5 := rfl
theorem v77_eq : val_main_v77 x0 x1 x2 x3 x4 x5 x6 x7 = refOut (val_main_v73 x0 x1 x2 x3 x4 x5) x6 x7 := rfl

end Stages

/-! ## Each stage read at an index, at the extended reals -/

section Read
variable (x0 : (⟨S262144x2, .f32⟩ : BufTy).Contents (Elt Ideal)) (x1 : (⟨S2x256, .f32⟩ : BufTy).Contents (Elt Ideal))
  (x2 : (⟨S512x256, .f32⟩ : BufTy).Contents (Elt Ideal)) (x3 : (⟨S256, .f32⟩ : BufTy).Contents (Elt Ideal))
  (x4 : (⟨S7x256x256, .f32⟩ : BufTy).Contents (Elt Ideal)) (x5 : (⟨S7x256, .f32⟩ : BufTy).Contents (Elt Ideal))
  (x6 : (⟨S256x1, .f32⟩ : BufTy).Contents (Elt Ideal)) (x7 : (⟨S1, .f32⟩ : BufTy).Contents (Elt Ideal))

/-- The angle of feature `j` at input row `r`. -/
theorem refAng_apply (r : Fin 262144) (j : Fin 256) :
    refAng x0 x1 (ix2 r j) = Cert.Mlp.angle (fun k => x0 (ix2 r k)) (fun a j => x1 (ix2 a j)) j := by
  have e1 : broadcastInDim S262144x256 ![] bcast_S_S262144x256 (constant (F := Ideal) S_ .f32 0x40C90FDB#32) (ix2 r j)
      = Ideal.ofBits .f32 0x40C90FDB#32 :=
    broadcastInDim_apply _ bcast_S_S262144x256 _ (ix2 r j) (fun a => a.elim0) (fun a => a.elim0)
  have e2 : Host.dotGeneral (F := Ideal) (φ₁ := .f32) (φ₂ := .f32) dot_S262144x2_S2x256_S262144x256_1_0_0_1_n_n none x0 x1 (ix2 r j)
      = ∑ c : Fin 2, x0 (ix2 r c) * x1 (ix2 c j) :=
    Cert.LibRowOps.dotGeneral_plain_apply (φ₁ := .f32) (φ₂ := .f32) dot_S262144x2_S2x256_S262144x256_1_0_0_1_n_n_wf none x0 x1 r j
  unfold refAng Cert.Mlp.angle Cert.Mlp.scale
  show _ * _ = _
  rw [e1, e2, Fin.sum_univ_two]

/-- One hidden layer at input row `r`: the network's hidden layer with matrix `L` and bias `L` of the stacks. -/
theorem refLayer_row (l : Nat) (h3 : S7x256x256.Slices ![l, 0, 0] S1x256x256) (h2 : S7x256.Slices ![l, 0] S1x256)
    (h : (⟨S262144x256, .f32⟩ : BufTy).Contents (Elt Ideal)) (L : Fin 7) (hL : L.val = l) (r : Fin 262144) :
    (fun q : Fin 256 => refLayer ![l, 0, 0] h3 ![l, 0] h2 h x4 x5 (ix2 r q))
      = Cert.Mlp.dense (fun k => h (ix2 r k)) (fun k q => x4 (ix3 L k q)) (fun q => x5 (ix2 L q)) := by
  funext q
  have e1 : ∀ B : (⟨S256x256, .f32⟩ : BufTy).Contents (Elt Ideal),
      Host.dotGeneral (F := Ideal) (φ₁ := .f32) (φ₂ := .f32) dot_S262144x256_S256x256_S262144x256_1_0_0_1_n_n none h B (ix2 r q)
        = ∑ c : Fin 256, h (ix2 r c) * B (ix2 c q) := fun B =>
    Cert.LibRowOps.dotGeneral_plain_apply (φ₁ := .f32) (φ₂ := .f32) dot_S262144x256_S256x256_S262144x256_1_0_0_1_n_n_wf none h B r q
  have e2 := Cert.LibRowOps.rowVec_host_apply (m := 262144)
    (shapeCast S256 (extractStridedSlice S1x256 ![l, 0] x5 h2) shapeCasts_S1x256_S256)
    bcast_S256_S1x256_1 bcast_S1x256_S262144x256_0_1 r q
  have e3 : ∀ k : Fin 256, shapeCast S256x256 (extractStridedSlice S1x256x256 ![l, 0, 0] x4 h3) shapeCasts_S1x256x256_S256x256 (ix2 k q)
      = x4 (ix3 L k q) := fun k =>
    (shapeCast_1ab_ab_apply _ shapeCasts_S1x256x256_S256x256 k q).trans
      (extractStridedSlice_apply ![l, 0, 0] x4 h3 (ix3 (0 : Fin 1) k q) (ix3 L k q) (fun a => by
        match a with
        | ⟨0, _⟩ => show L.val = l + 0; omega
        | ⟨1, _⟩ => show k.val = 0 + k.val; omega
        | ⟨2, _⟩ => show q.val = 0 + q.val; omega))
  have e4 : shapeCast S256 (extractStridedSlice S1x256 ![l, 0] x5 h2) shapeCasts_S1x256_S256 (ix1 q) = x5 (ix2 L q) :=
    (shapeCast_1a_a_apply _ shapeCasts_S1x256_S256 q).trans
      (slice2_axis0_apply l x5 h2 (0 : Fin 1) q L (by show L.val = l + 0; omega))
  unfold refLayer Cert.Mlp.dense
  show Ideal.tanh (_ + _) = _
  rw [e1, e2, e4]
  exact congrArg (fun z => Ideal.tanh (z + x5 (ix2 L q))) (Finset.sum_congr rfl fun k _ => by rw [e3 k])

/-- The first layer at input row `r`. -/
theorem refFirst_row (r : Fin 262144) :
    (fun q : Fin 256 => refFirst x0 x1 x2 x3 (ix2 r q))
      = Cert.Mlp.first (fun k => x0 (ix2 r k)) (fun a j => x1 (ix2 a j)) (fun k q => x2 (ix2 k q)) (fun q => x3 (ix1 q)) := by
  funext q
  have e1 : Host.dotGeneral (F := Ideal) (φ₁ := .f32) (φ₂ := .f32) dot_S262144x512_S512x256_S262144x256_1_0_0_1_n_n none
      (concatenate S262144x512 1 [⟨S262144x256, Host.sin (refAng x0 x1)⟩, ⟨S262144x256, Host.cos (refAng x0 x1)⟩]
        concatenates_S262144x256_S262144x256_S262144x512_d1) x2 (ix2 r q)
      = ∑ c : Fin 512, concatenate S262144x512 1 [⟨S262144x256, Host.sin (refAng x0 x1)⟩, ⟨S262144x256, Host.cos (refAng x0 x1)⟩]
          concatenates_S262144x256_S262144x256_S262144x512_d1 (ix2 r c) * x2 (ix2 c q) :=
    Cert.LibRowOps.dotGeneral_plain_apply (φ₁ := .f32) (φ₂ := .f32) dot_S262144x512_S512x256_S262144x256_1_0_0_1_n_n_wf none
      (concatenate S262144x512 1 [⟨S262144x256, Host.sin (refAng x0 x1)⟩, ⟨S262144x256, Host.cos (refAng x0 x1)⟩]
        concatenates_S262144x256_S262144x256_S262144x512_d1) x2 r q
  have e2 := Cert.LibRowOps.rowVec_host_apply (m := 262144) x3 bcast_S256_S1x256_1 bcast_S1x256_S262144x256_0_1 r q
  have eL : ∀ k : Fin 256, concatenate S262144x512 1 [⟨S262144x256, Host.sin (refAng x0 x1)⟩, ⟨S262144x256, Host.cos (refAng x0 x1)⟩]
      concatenates_S262144x256_S262144x256_S262144x512_d1 (ix2 r (Cert.Mlp.lo k)) = Ideal.sin (refAng x0 x1 (ix2 r k)) := fun k =>
    concatenate_pair_apply_left (1 : Fin 2) (Host.sin (refAng x0 x1)) (Host.cos (refAng x0 x1))
      concatenates_S262144x256_S262144x256_S262144x512_d1 (ix2 r (Cert.Mlp.lo k)) rfl (ix2 r k) (fun b => by
        match b with
        | ⟨0, _⟩ => rfl
        | ⟨1, _⟩ => rfl)
  have eR : ∀ k : Fin 256, concatenate S262144x512 1 [⟨S262144x256, Host.sin (refAng x0 x1)⟩, ⟨S262144x256, Host.cos (refAng x0 x1)⟩]
      concatenates_S262144x256_S262144x256_S262144x512_d1 (ix2 r (Cert.Mlp.hi k)) = Ideal.cos (refAng x0 x1 (ix2 r k)) := fun k =>
    concatenate_pair_apply_right (1 : Fin 2) (Host.sin (refAng x0 x1)) (Host.cos (refAng x0 x1))
      concatenates_S262144x256_S262144x256_S262144x512_d1 (ix2 r (Cert.Mlp.hi k)) rfl rfl (ix2 r k) (fun b hb => by
        match b with
        | ⟨0, _⟩ => rfl
        | ⟨1, _⟩ => exact absurd rfl hb)
      (by show k.val + 256 = 256 + k.val; omega)
  unfold refFirst Cert.Mlp.first
  show Ideal.tanh (_ + _) = _
  rw [e1, e2, Cert.Mlp.sum_halves]
  refine congrArg (fun z => Ideal.tanh (z + x3 (ix1 q))) ?_
  refine congrArg₂ (· + ·) (Finset.sum_congr rfl fun k _ => ?_) (Finset.sum_congr rfl fun k _ => ?_)
  · rw [eL k, refAng_apply]
  · rw [eR k, refAng_apply]

/-- The last affine map at input row `r`. -/
theorem refOut_apply (h : (⟨S262144x256, .f32⟩ : BufTy).Contents (Elt Ideal)) (r : Fin 262144) (u : Fin 1) :
    refOut h x6 x7 (ix2 r u)
      = Cert.Mlp.last (fun k => h (ix2 r k)) (fun k => x6 (ix2 k (0 : Fin 1))) (x7 (ix1 (0 : Fin 1))) := by
  have hu : u = 0 := Subsingleton.elim _ _
  subst hu
  unfold refOut Cert.Mlp.last
  exact congrArg₂ (· + ·)
    (Cert.LibRowOps.dotGeneral_plain_apply (φ₁ := .f32) (φ₂ := .f32) dot_S262144x256_S256x1_S262144x1_1_0_0_1_n_n_wf none h x6 r (0 : Fin 1))
    (Cert.LibRowOps.rowVec_host_apply (m := 262144) x7 bcast_S1_S1x1_1 bcast_S1x1_S262144x1_0_1 r (0 : Fin 1))

/-- The reference's result at `(r, 0)` is the network at input row `r`. -/
theorem ref_apply (r : Fin 262144) (u : Fin 1) :
    val_main_v77 x0 x1 x2 x3 x4 x5 x6 x7 (ix2 r u)
      = Cert.Mlp.mlp (fun k => x0 (ix2 r k)) (fun a j => x1 (ix2 a j)) (fun k q => x2 (ix2 k q)) (fun q => x3 (ix1 q))
          (fun l k q => x4 (ix3 l k q)) (fun l q => x5 (ix2 l q)) (fun k => x6 (ix2 k (0 : Fin 1))) (x7 (ix1 (0 : Fin 1))) := by
  unfold Cert.Mlp.mlp Cert.Mlp.hidden
  rw [v77_eq, refOut_apply,
    v73_eq, refLayer_row x4 x5 6 _ _ _ (6 : Fin 7) rfl r,
    v64_eq, refLayer_row x4 x5 5 _ _ _ (5 : Fin 7) rfl r,
    v55_eq, refLayer_row x4 x5 4 _ _ _ (4 : Fin 7) rfl r,
    v46_eq, refLayer_row x4 x5 3 _ _ _ (3 : Fin 7) rfl r,
    v37_eq, refLayer_row x4 x5 2 _ _ _ (2 : Fin 7) rfl r,
    v28_eq, refLayer_row x4 x5 1 _ _ _ (1 : Fin 7) rfl r,
    v19_eq, refLayer_row x4 x5 0 _ _ _ (0 : Fin 7) rfl r,
    v10_eq, refFirst_row]

/-- The reference's result array is the specification's. -/
theorem ref_eq_G : val_main_v77 x0 x1 x2 x3 x4 x5 x6 x7 = Cert.Mlp.G x0 x1 x2 x3 x4 x5 x6 x7 := by
  funext i
  obtain ⟨r, u, rfl⟩ : ∃ (r : Fin 262144) (u : Fin 1), i = ix2 r u := ⟨i 0, i 1, eq_ix2 i⟩
  exact ref_apply x0 x1 x2 x3 x4 x5 x6 x7 r u

end Read

end Cert.ReferenceIdeal.RefBody

end
-- ==== Proof.lean ====
/-
  The proof of `Cert.Claim`: a Pallas kernel that evaluates a Fourier-feature network on 262144 points, 1024 points per
  grid step, against its whole-batch jnp reference, on the extended reals.

  Both programs compute, at every input row, the network `Cert.Mlp.mlp` (Proof/Spec.lean): 256 angles
  `c · (x₀·P₀ⱼ + x₁·P₁ⱼ)` with `c` the same single-precision word in both, their sines and cosines, a first layer
  `tanh(features · W₀ + b₀)`, seven layers `tanh(h · Wₗ + bₗ)` and a last affine map.  The kernel differs from the reference
  in three ways, none of which changes the extended reals: it rounds the operands of its matrix products to a narrower
  float format (the identity here); it multiplies the sines by the upper half of `W₀` and the cosines by the lower half
  and adds the two products, where the reference multiplies their concatenation by all of `W₀` (a sum over 512 terms is
  the sum over the first 256 plus the sum over the last 256); and it computes the two-term product `x · P` as two
  elementwise products added, where the reference uses a matrix product (the sum over two terms).  No law used needs a
  finite operand, so the precondition is not opened.

  Proof/KLayers.lean and Proof/KBody.lean read the kernel body's stored block at an index; Proof/Blocks.lean goes from
  the 256 blocks to the whole result array over the generated blockwise value leg; Proof/RefBody.lean reads the
  reference's generated run at an index.  Here the claims are assembled: the frames are the generated ones (the
  reference's is its generated run with the result dropped), the idealization rewrote nothing, and the two runs end at
  the same function `Cert.Mlp.G` of arguments that agree.
-/
import proofs.«114249_j23845658427755_1_alg».proof.Defs
import proofs.«114249_j23845658427755_1_alg».proof.Proof.Gen.Kernel
import proofs.«114249_j23845658427755_1_alg».proof.Proof.Gen.Kernel.Skeleton
import proofs.«114249_j23845658427755_1_alg».proof.Proof.Gen.Kernel.Launch
import proofs.«114249_j23845658427755_1_alg».proof.Proof.Gen.Kernel.Points
import proofs.«114249_j23845658427755_1_alg».proof.Proof.Gen.Kernel.Frame
import proofs.«114249_j23845658427755_1_alg».proof.Proof.Gen.KernelIdeal
import proofs.«114249_j23845658427755_1_alg».proof.Proof.Gen.KernelIdeal.Skeleton
import proofs.«114249_j23845658427755_1_alg».proof.Proof.Gen.KernelIdeal.Launch
import proofs.«114249_j23845658427755_1_alg».proof.Proof.Gen.KernelIdeal.Points
import proofs.«114249_j23845658427755_1_alg».proof.Proof.Gen.KernelIdeal.Frame
import proofs.«114249_j23845658427755_1_alg».proof.Proof.Gen.ReferenceIdeal
import proofs.«114249_j23845658427755_1_alg».proof.Proof.Gen.KernelIdeal.Value
import proofs.«114249_j23845658427755_1_alg».proof.Proof.Gen.ReferenceIdeal.Run
import proofs.«114249_j23845658427755_1_alg».proof.Proof.Gen.ReferenceIdeal.Read
import proofs.«114249_j23845658427755_1_alg».proof.Proof.Gen.Pre_finite_inputs
import proofs.«114249_j23845658427755_1_alg».proof.Proof.Blocks
import proofs.«114249_j23845658427755_1_alg».proof.Proof.RefBody
import Idealize.ShloMosaic.Adequacy
import Idealize.ShloMosaic.Init

noncomputable section

namespace Cert.Proof

open Idealize.ShloMosaic Idealize.SL.Sem Cert.Kernel

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, the kernel's result array and the reference's are the same function
    `Cert.Mlp.G` of the arguments: entry `(r, 0)` is the network at input row `r`. -/
theorem algebraic : Cert.algebraic_KernelIdeal_ReferenceIdeal := by
  intro m ρ m' ρ' _ hagree
  refine ⟨fun c => Cert.Mlp.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), Cert.KernelIdeal.BlockValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v77_eq, Cert.ReferenceIdeal.RefBody.ref_eq_G,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
